-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S524288x128 .f32) (main_arg1 : FVec F S128x128 .f32) (main_arg2 : FVec F S128 .f32) (main_arg3 : FVec F S128 .f32) (main_arg4 : FVec F S128 .f32) (main_arg5 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S524288x128 : Shape := ⟨2, ![524288, 128]⟩
abbrev S128x128 : Shape := ⟨2, ![128, 128]⟩
abbrev S128 : Shape := ⟨1, ![128]⟩
abbrev S16x128 : Shape := ⟨2, ![16, 128]⟩
abbrev S16384x128 : Shape := ⟨2, ![16384, 128]⟩
abbrev S8x128 : Shape := ⟨2, ![8, 128]⟩
abbrev S1x128 : Shape := ⟨2, ![1, 128]⟩
abbrev S_ : Shape := ⟨0, ![]⟩
abbrev S128x1 : Shape := ⟨2, ![128, 1]⟩
abbrev S8192x128 : Shape := ⟨2, ![8192, 128]⟩

abbrev nBuf : Space → Nat
  | .hbm => 58
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16x128, .f32⟩
  | .hbm, ⟨7, _⟩ => ⟨S16x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .i1⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x1, .f32⟩
  | .hbm, ⟨51, _⟩ => ⟨S128x128, .f32⟩
  | .hbm, ⟨52, _⟩ => ⟨S128x128, .f32⟩
  | .hbm, ⟨53, _⟩ => ⟨S128x128, .bf16⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S524288x128, .f32⟩
  | .local _ .vmem, ⟨0, _⟩ => ⟨S16384x128, .f32⟩
  | .local _ .vmem, ⟨1, _⟩ => ⟨S16384x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8192x128, .f32⟩
  | .local _ .vmem, ⟨7, _⟩ => ⟨S8192x128, .f32⟩
  | .local _ .vmem, ⟨8, _⟩ => ⟨S128x128, .bf16⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_cst_6 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16384x128_S16384x128_0_0 : ∀ a, (![0, 0] : Fin 2 → Nat) a + S16384x128.size a ≤ S16384x128.size a
  h_S16384x128 : 0 < S16384x128.numel
  reduces_S16384x128_S128 : S16384x128.Reduces [0] S128
  shapeCasts_S128_S1x128 : S128.ShapeCasts S1x128
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S128x128_S128x128_1_0 : S128x128.Transposes [1, 0] S128x128
  shapeCasts_S1x128_S128x1 : S1x128.ShapeCasts S128x1
  bcast_S128x1_S128x128_0_1 : S128x1.BroadcastsInDim S128x128 (![0, 1] : Fin 2 → Fin S128x128.rank)
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S8192x128 : S1x128.Broadcasts S8192x128
  dot_S1x128_S128x128_S1x128_1_0_0_1_n_n_wf : DotDims.WF S1x128 S128x128 S1x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S524288x128.size a
  hwx1_3 : ∀ i : grid1.Coords, EltTy.bits .f32 = 32 ∨ (Rect.block (s := S524288x128) S8192x128.size (cc1_transform_3 i) (hinb1_3 i)).WholeWords (EltTy.packing .f32)

variable [Facts₀]

def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S524288x128, .f32⟩
  | .hbm, ⟨22, _⟩ => ⟨S524288x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S524288x128, .f32⟩
  | .hbm, ⟨29, _⟩ => ⟨S524288x128, .f32⟩
  | .hbm, ⟨30, _⟩ => ⟨S1x128, .f32⟩
  | .hbm, ⟨31, _⟩ => ⟨S524288x128, .f32⟩
  | .hbm, ⟨32, _⟩ => ⟨S524288x128, .f32⟩
  | .hbm, ⟨33, _⟩ => ⟨S1x128, .f32⟩
  | .hbm, ⟨34, _⟩ => ⟨S524288x128, .f32⟩
  | .hbm, ⟨35, _⟩ => ⟨S524288x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .i1⟩
  | .hbm, ⟨42, _⟩ => ⟨S_, .f32⟩
  | .hbm, ⟨43, _⟩ => ⟨S128x128, .f32⟩
  | .hbm, ⟨44, _⟩ => ⟨S128x128, .i1⟩
  | .hbm, ⟨45, _⟩ => ⟨S_, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_cst_8 : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  reducesTo_S524288x128_S128_d0 : S524288x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.RunValue.lean ====
/-
  The idealized kernel's run with its result named: every weakly fair execution of @main terminates without a fault, the
  arguments end as launched, and the result buffer ends at the contents the second region's write-backs leave
  (the last boundary of the fold through @main, read at the result's reference).
-/
import proofs.«115951_j65661460021995_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, each argument as launched. -/
theorem run : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.HostStages.lean ====
/-
  The host operations between the two regions, as staged pure functions of the first region's two accumulator arrays
  (A₁: sums, A₂: sums of squares; rows 0 and 8 hold the two halves' totals) and of the arguments:
    rowSum A   = A[0,·] + A[8,·]                        the total over all rows
    mean       = rowSum A₁ / n
    var        = rowSum A₂ / n − mean · mean            (one-pass variance)
    scale      = γ · rsqrt (var + ε)
    shift      = β − mean · scale
    tmat       = the ternarised weight; tT its transpose
    wfold[i,o] = scale[i] · tT[i,o]                     the second region's weight input
    bfold[o]   = (shift · tT)[o] + bias[o]              the second region's bias input
  and the fact that the buffers the second region reads hold exactly these, whatever the contents the stretch starts from.
-/
import proofs.«115951_j65661460021995_2_alg».proof.Proof.Gen.KernelIdeal.Frame
import Idealize.ShloMosaic.Lib.StableHlo.Run
import Idealize.ShloMosaic.PureOps.Ideal

set_option maxRecDepth 16384

noncomputable section

namespace Cert.KernelIdeal.HostMid

open Cert.KernelIdeal Cert.KernelIdeal.Gen
open Idealize.ShloMosaic Idealize.ShloMosaic.TcCoe Idealize.SL.Sem Idealize.ShloMosaic.StableHlo

/-! ## The stages -/

def rowSum (A : FVec Ideal S16x128 .f32) : FVec Ideal S1x128 .f32 :=
  addf (extractStridedSlice S1x128 ![0, 0] A slices_S16x128_S1x128_0_0)
    (extractStridedSlice S1x128 ![8, 0] A slices_S16x128_S1x128_8_0)

/-- A scalar word as a 1 × 128 row. -/
def splat (b : BitVec 32) : FVec Ideal S1x128 .f32 := broadcastInDim S1x128 ![] bcast_S_S1x128 (constant S_ .f32 b)
/-- A scalar word as a 128 × 128 matrix. -/
def splatM (b : BitVec 32) : FVec Ideal S128x128 .f32 := broadcastInDim S128x128 ![] bcast_S_S128x128 (constant S_ .f32 b)
/-- A feature vector as a 1 × 128 row. -/
def row (g : FVec Ideal S128 .f32) : FVec Ideal S1x128 .f32 := broadcastInDim S1x128 ![1] bcast_S128_S1x128_1 g

def mean (A1 : FVec Ideal S16x128 .f32) : FVec Ideal S1x128 .f32 := Host.divf (rowSum A1) (splat 0x49000000#32)

def var (A1 A2 : FVec Ideal S16x128 .f32) : FVec Ideal S1x128 .f32 :=
  subf (Host.divf (rowSum A2) (splat 0x49000000#32)) (mulf (mean A1) (mean A1))

def scale (A1 A2 : FVec Ideal S16x128 .f32) (γ : FVec Ideal S128 .f32) : FVec Ideal S1x128 .f32 :=
  mulf (row γ) (Host.rsqrt (addf (var A1 A2) (splat 0x3727C5AC#32)))

def shift (A1 A2 : FVec Ideal S16x128 .f32) (γ β : FVec Ideal S128 .f32) : FVec Ideal S1x128 .f32 :=
  subf (row β) (mulf (mean A1) (scale A1 A2 γ))

/-- The weight minus α along the features. -/
def dmat (w : FVec Ideal S128x128 .f32) (α : FVec Ideal S128 .f32) : FVec Ideal S128x128 .f32 :=
  subf w (broadcastInDim S128x128 ![0, 1] bcast_S1x128_S128x128_0_1 (row α))

def tmat (w : FVec Ideal S128x128 .f32) (α : FVec Ideal S128 .f32) : FVec Ideal S128x128 .f32 :=
  select (cmpf .ogt (dmat w α) (splatM 0x00000000#32)) (splatM 0x3F800000#32)
    (select (cmpf .olt (dmat w α) (splatM 0x3F800000#32)) (splatM 0xBF800000#32) (splatM 0x00000000#32))

def tT (w : FVec Ideal S128x128 .f32) (α : FVec Ideal S128 .f32) : FVec Ideal S128x128 .f32 :=
  transpose S128x128 [1, 0] (id (tmat w α)) transposes_S128x128_S128x128_1_0

def wfold (A1 A2 : FVec Ideal S16x128 .f32) (w : FVec Ideal S128x128 .f32) (γ α : FVec Ideal S128 .f32) :
    FVec Ideal S128x128 .bf16 :=
  truncf .bf16 (mulf (broadcastInDim S128x128 ![0, 1] bcast_S128x1_S128x128_0_1
      (shapeCast S128x1 (scale A1 A2 γ) shapeCasts_S1x128_S128x1)) (tT w α)) bitsLt_bf16_f32

def bfold (A1 A2 : FVec Ideal S16x128 .f32) (w : FVec Ideal S128x128 .f32) (bias γ β α : FVec Ideal S128 .f32) :
    FVec Ideal S1x128 .f32 :=
  addf (Host.dotGeneral dot_S1x128_S128x128_S1x128_1_0_0_1_n_n none (shift A1 A2 γ β) (tT w α)) (row bias)

/-! ## The stretch computes the stages -/

/-- The contents after the five stretches of host operations between the regions, from any contents W. -/
abbrev mid (W : Valuation τ sig (Elt Ideal)) : Valuation τ sig (Elt Ideal) :=
  StableHlo.after hostOps1_4 (StableHlo.after hostOps1_3 (StableHlo.after hostOps1_2
    (StableHlo.after hostOps1_1 (StableHlo.after hostOps1 W))))

theorem mid_weight (W : Valuation τ sig (Elt Ideal)) :
    mid W (Proc.devRef .tc main_v35)
      = wfold (W (Proc.devRef .tc main_v0_0)) (W (Proc.devRef .tc main_v0_1)) (W (Proc.devRef .tc main_arg1))
          (W (Proc.devRef .tc main_arg3)) (W (Proc.devRef .tc main_arg5)) := by
  dsimp only [mid, hostOps1_4, hostOps1_3, hostOps1_2, hostOps1_1, hostOps1]
  after_results_simp
  rfl

theorem mid_bias (W : Valuation τ sig (Elt Ideal)) :
    mid W (Proc.devRef .tc main_v38)
      = bfold (W (Proc.devRef .tc main_v0_0)) (W (Proc.devRef .tc main_v0_1)) (W (Proc.devRef .tc main_arg1))
          (W (Proc.devRef .tc main_arg2)) (W (Proc.devRef .tc main_arg3)) (W (Proc.devRef .tc main_arg4))
          (W (Proc.devRef .tc main_arg5)) := by
  dsimp only [mid, hostOps1_4, hostOps1_3, hostOps1_2, hostOps1_1, hostOps1]
  after_results_simp
  rfl

/-- No operation of the stretch writes x. -/
theorem mid_x (W : Valuation τ sig (Elt Ideal)) :
    mid W (Proc.devRef .tc main_arg0) = W (Proc.devRef .tc main_arg0) := by
  dsimp only [mid, hostOps1_4, hostOps1_3, hostOps1_2, hostOps1_1, hostOps1]
  after_results_simp

end Cert.KernelIdeal.HostMid

end
-- ==== Proof.Spec.lean ====
/-
  The two programs as formulas on the extended reals, over plain curried arrays:
  x : rows × features, w : outputs × features (the weight as given), bias over outputs, γ β α over features.

  Both normalise x per feature over the 524288 rows and apply a ternarised weight.
  * The reference:  out[b,o] = ∑ᵢ ((x[b,i] − m[i]) · rsqrt(v[i] + ε) · γ[i] + β[i]) · t[o,i] + bias[o],
      m[i] = (∑_b x[b,i]) / n,   v[i] = (∑_b (x[b,i] − m[i])²) / n            (two passes over x).
  * The kernel:     out[b,o] = ∑ᵢ x[b,i] · (s[i] · t[o,i]) + (∑ᵢ (β[i] − m[i] · s[i]) · t[o,i] + bias[o]),
      s[i] = γ[i] · rsqrt(q[i] / n − m[i]² + ε),   q[i] = ∑_b x[b,i]²          (one pass; the affine map folded
      into the weight), each sum over the rows taken as the lower half plus the upper half.
  t[o,i] is 1 where w[o,i] − α[i] > 0, else −1 where w[o,i] − α[i] < 1, else 0.
-/
import Idealize.ShloMosaic.PureOps.Ideal

noncomputable section

namespace Cert.Bridge

open Idealize.ShloMosaic

/-- n = 524288 = 2¹⁹ as both programs write it. -/
abbrev nRows : EReal := Ideal.ofBits .f32 0x49000000#32
/-- ε, the single-precision word nearest 1e-5, the same word in both programs. -/
abbrev eps : EReal := Ideal.ofBits .f32 0x3727C5AC#32
abbrev zero : EReal := Ideal.ofBits .f32 0x00000000#32
abbrev one : EReal := Ideal.ofBits .f32 0x3F800000#32
abbrev negOne : EReal := Ideal.ofBits .f32 0xBF800000#32

/-- Row b of the lower half of x. -/
def lo (b : Fin 262144) : Fin 524288 := ⟨b.val, by omega⟩
/-- Row b of the upper half of x. -/
def hi (b : Fin 262144) : Fin 524288 := ⟨262144 + b.val, by omega⟩
/-- Row b of the half of x that accumulator row r (of 16: eight per half) belongs to. -/
def halfRow (r : Fin 16) (b : Fin 262144) : Fin 524288 := ⟨(r.val / 8) * 262144 + b.val, by omega⟩

/-- The ternarised weight entry. -/
def tern (w a : EReal) : EReal :=
  Scalar.select (Ideal.cmp .ogt (w - a) zero) one (Scalar.select (Ideal.cmp .olt (w - a) one) negOne zero)

section
variable (x : Fin 524288 → Fin 128 → EReal) (w : Fin 128 → Fin 128 → EReal) (bias γ β α : Fin 128 → EReal)

/-! ### The reference -/
def refMean (i : Fin 128) : EReal := Ideal.div (zero + ∑ b : Fin 524288, x b i) nRows
def refVar (i : Fin 128) : EReal :=
  Ideal.div (zero + ∑ b : Fin 524288, (x b i - refMean x i) * (x b i - refMean x i)) nRows
def refOut (b : Fin 524288) (o : Fin 128) : EReal :=
  (∑ i : Fin 128, ((x b i - refMean x i) * Ideal.rsqrt (refVar x i + eps) * γ i + β i) * tern (w o i) (α i)) + bias o

/-! ### The kernel -/
def kSum (i : Fin 128) : EReal := (∑ b : Fin 262144, x (lo b) i) + (∑ b : Fin 262144, x (hi b) i)
def kSumSq (i : Fin 128) : EReal :=
  (∑ b : Fin 262144, x (lo b) i * x (lo b) i) + (∑ b : Fin 262144, x (hi b) i * x (hi b) i)
def kMean (i : Fin 128) : EReal := Ideal.div (kSum x i) nRows
def kVar (i : Fin 128) : EReal := Ideal.div (kSumSq x i) nRows - kMean x i * kMean x i
def kScale (i : Fin 128) : EReal := γ i * Ideal.rsqrt (kVar x i + eps)
def kShift (i : Fin 128) : EReal := β i - kMean x i * kScale x γ i
def kOut (b : Fin 524288) (o : Fin 128) : EReal :=
  (∑ i : Fin 128, x b i * (kScale x γ i * tern (w o i) (α i)))
    + ((∑ i : Fin 128, kShift x γ β i * tern (w o i) (α i)) + bias o)
end

end Cert.Bridge

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.HostRead.lean ====
/-
  The host stages between the regions read at an index, and then in the vocabulary of the specification:
  with A₁[r,j] and A₂[r,j] the half totals of x and of x² (the first region's result),
    wfold[i,o] = kScale i · t[o,i]          and          bfold[0,o] = ∑ᵢ kShift i · t[o,i] + bias[o].
-/
import proofs.«115951_j65661460021995_2_alg».proof.Proof.HostStages
import proofs.«115951_j65661460021995_2_alg».proof.Proof.Spec
import proofs.«115951_j65661460021995_2_alg».proof.Proof.LibDotRows
import Idealize.ShloMosaic.Lib.Pipeline.Value
import Idealize.ShloMosaic.Lib.ValueIdx
import Idealize.ShloMosaic.Lib.ValueLayout

set_option maxRecDepth 16384

noncomputable section

namespace Cert.KernelIdeal.HostMid

open Cert.KernelIdeal Cert.KernelIdeal.Gen Cert.Bridge
open Idealize.ShloMosaic Idealize.ShloMosaic.ValueIdx

/-! ## Each stage at an index -/

theorem rowSum_apply (A : FVec Ideal S16x128 .f32) (j : Fin 128) :
    rowSum A (ix2 (0 : Fin 1) j) = A (ix2 (0 : Fin 16) j) + A (ix2 (8 : Fin 16) j) := by
  unfold rowSum
  rw [addf_apply, slice2_axis0_apply 0 A slices_S16x128_S1x128_0_0 (0 : Fin 1) j (0 : Fin 16) rfl,
    slice2_axis0_apply 8 A slices_S16x128_S1x128_8_0 (0 : Fin 1) j (8 : Fin 16) rfl]

theorem splat_apply (b : BitVec 32) (i : S1x128.Idx) : splat b i = Ideal.ofBits .f32 b := by
  unfold splat
  exact broadcastInDim_apply _ bcast_S_S1x128 (constant (F := Ideal) S_ .f32 b) i (fun a => a.elim0) (fun a => a.elim0)

theorem splatM_apply (b : BitVec 32) (i : S128x128.Idx) : splatM b i = Ideal.ofBits .f32 b := by
  unfold splatM
  exact broadcastInDim_apply _ bcast_S_S128x128 (constant (F := Ideal) S_ .f32 b) i (fun a => a.elim0) (fun a => a.elim0)

theorem row_apply (g : FVec Ideal S128 .f32) (j : Fin 128) : row g (ix2 (0 : Fin 1) j) = g (ix1 j) := by
  unfold row
  exact broadcastInDim_apply _ bcast_S128_S1x128_1 g (ix2 (0 : Fin 1) j) (ix1 j) (fun a => match a with
    | ⟨0, _⟩ => by show j.val = if (128 : Nat) = 1 then 0 else j.val; rw [if_neg (by decide)])

theorem mean_apply (A1 : FVec Ideal S16x128 .f32) (j : Fin 128) :
    mean A1 (ix2 (0 : Fin 1) j) = Ideal.div (A1 (ix2 (0 : Fin 16) j) + A1 (ix2 (8 : Fin 16) j)) nRows := by
  unfold mean
  show Ideal.div (rowSum A1 (ix2 (0 : Fin 1) j)) (splat 0x49000000#32 (ix2 (0 : Fin 1) j)) = _
  rw [rowSum_apply, splat_apply]

theorem var_apply (A1 A2 : FVec Ideal S16x128 .f32) (j : Fin 128) :
    var A1 A2 (ix2 (0 : Fin 1) j)
      = Ideal.div (A2 (ix2 (0 : Fin 16) j) + A2 (ix2 (8 : Fin 16) j)) nRows
          - mean A1 (ix2 (0 : Fin 1) j) * mean A1 (ix2 (0 : Fin 1) j) := by
  unfold var
  show Ideal.div (rowSum A2 (ix2 (0 : Fin 1) j)) (splat 0x49000000#32 (ix2 (0 : Fin 1) j))
      - mean A1 (ix2 (0 : Fin 1) j) * mean A1 (ix2 (0 : Fin 1) j) = _
  rw [rowSum_apply, splat_apply]

theorem scale_apply (A1 A2 : FVec Ideal S16x128 .f32) (γ : FVec Ideal S128 .f32) (j : Fin 128) :
    scale A1 A2 γ (ix2 (0 : Fin 1) j) = γ (ix1 j) * Ideal.rsqrt (var A1 A2 (ix2 (0 : Fin 1) j) + eps) := by
  unfold scale
  show row γ (ix2 (0 : Fin 1) j)
      * Ideal.rsqrt (var A1 A2 (ix2 (0 : Fin 1) j) + splat 0x3727C5AC#32 (ix2 (0 : Fin 1) j)) = _
  rw [row_apply, splat_apply]

theorem shift_apply (A1 A2 : FVec Ideal S16x128 .f32) (γ β : FVec Ideal S128 .f32) (j : Fin 128) :
    shift A1 A2 γ β (ix2 (0 : Fin 1) j)
      = β (ix1 j) - mean A1 (ix2 (0 : Fin 1) j) * scale A1 A2 γ (ix2 (0 : Fin 1) j) := by
  unfold shift
  show row β (ix2 (0 : Fin 1) j) - mean A1 (ix2 (0 : Fin 1) j) * scale A1 A2 γ (ix2 (0 : Fin 1) j) = _
  rw [row_apply]

theorem dmat_apply (w : FVec Ideal S128x128 .f32) (α : FVec Ideal S128 .f32) (o i : Fin 128) :
    dmat w α (ix2 o i) = w (ix2 o i) - α (ix1 i) := by
  unfold dmat
  rw [subf_apply, broadcastInDim_apply _ bcast_S1x128_S128x128_0_1 (row α) (ix2 o i) (ix2 (0 : Fin 1) i) (fun a => match a with
    | ⟨0, _⟩ => by show 0 = if (1 : Nat) = 1 then 0 else o.val; rw [if_pos rfl]
    | ⟨1, _⟩ => by show i.val = if (128 : Nat) = 1 then 0 else i.val; rw [if_neg (by decide)]), row_apply]

theorem tmat_apply (w : FVec Ideal S128x128 .f32) (α : FVec Ideal S128 .f32) (o i : Fin 128) :
    tmat w α (ix2 o i) = tern (w (ix2 o i)) (α (ix1 i)) := by
  unfold tmat tern
  show Scalar.select (Ideal.cmp .ogt (dmat w α (ix2 o i)) (splatM 0x00000000#32 (ix2 o i))) (splatM 0x3F800000#32 (ix2 o i))
      (Scalar.select (Ideal.cmp .olt (dmat w α (ix2 o i)) (splatM 0x3F800000#32 (ix2 o i))) (splatM 0xBF800000#32 (ix2 o i))
        (splatM 0x00000000#32 (ix2 o i))) = _
  rw [dmat_apply, splatM_apply, splatM_apply, splatM_apply]

theorem tT_apply (w : FVec Ideal S128x128 .f32) (α : FVec Ideal S128 .f32) (i o : Fin 128) :
    tT w α (ix2 i o) = tern (w (ix2 o i)) (α (ix1 i)) := by
  unfold tT
  rw [transpose_ix2_apply (id (tmat w α)) transposes_S128x128_S128x128_1_0 i o]
  exact tmat_apply w α o i

theorem wfold_apply (A1 A2 : FVec Ideal S16x128 .f32) (w : FVec Ideal S128x128 .f32) (γ α : FVec Ideal S128 .f32)
    (i o : Fin 128) :
    wfold A1 A2 w γ α (ix2 i o) = scale A1 A2 γ (ix2 (0 : Fin 1) i) * tern (w (ix2 o i)) (α (ix1 i)) := by
  unfold wfold
  rw [truncf_apply, mulf_apply, tT_apply,
    broadcastInDim_apply _ bcast_S128x1_S128x128_0_1 (shapeCast S128x1 (scale A1 A2 γ) shapeCasts_S1x128_S128x1)
      (ix2 i o) (ix2 i (0 : Fin 1)) (fun a => match a with
        | ⟨0, _⟩ => by show i.val = if (128 : Nat) = 1 then 0 else i.val; rw [if_neg (by decide)]
        | ⟨1, _⟩ => by show 0 = if (1 : Nat) = 1 then 0 else o.val; rw [if_pos rfl]),
    shapeCast_apply (scale A1 A2 γ) shapeCasts_S1x128_S128x1 (ix2 i (0 : Fin 1)) (ix2 (0 : Fin 1) i) (by
      rw [Shape.rowMajor_val_two, Shape.rowMajor_val_two]
      show 0 * 128 + i.val = i.val * 1 + 0
      omega)]

theorem bfold_apply (A1 A2 : FVec Ideal S16x128 .f32) (w : FVec Ideal S128x128 .f32) (bias γ β α : FVec Ideal S128 .f32)
    (o : Fin 128) :
    bfold A1 A2 w bias γ β α (ix2 (0 : Fin 1) o)
      = (∑ i : Fin 128, shift A1 A2 γ β (ix2 (0 : Fin 1) i) * tern (w (ix2 o i)) (α (ix1 i))) + bias (ix1 o) := by
  unfold bfold
  rw [addf_apply, row_apply,
    DotRows.dotGeneral_ix2 dot_S1x128_S128x128_S1x128_1_0_0_1_n_n rfl rfl rfl rfl rfl rfl none (shift A1 A2 γ β) (tT w α)
      (0 : Fin 1) o]
  refine congrArg (· + bias (ix1 o)) (Finset.sum_congr rfl fun i _ => ?_)
  rw [tT_apply]

/-! ## In the specification's vocabulary -/

theorem halfRow_zero : halfRow (0 : Fin 16) = lo := funext fun b => Fin.ext (by
  show (0 : Fin 16).val / 8 * 262144 + b.val = b.val
  show 0 / 8 * 262144 + b.val = b.val
  omega)

theorem halfRow_eight : halfRow (8 : Fin 16) = hi := funext fun b => Fin.ext (by
  show (8 : Fin 16).val / 8 * 262144 + b.val = 262144 + b.val
  show 8 / 8 * 262144 + b.val = 262144 + b.val
  omega)

section
variable (X : S524288x128.Idx → EReal) (A1 A2 : FVec Ideal S16x128 .f32)
  (hA1 : ∀ (r : Fin 16) (j : Fin 128), A1 (ix2 r j) = ∑ b : Fin 262144, X (ix2 (halfRow r b) j))
  (hA2 : ∀ (r : Fin 16) (j : Fin 128), A2 (ix2 r j) = ∑ b : Fin 262144, X (ix2 (halfRow r b) j) * X (ix2 (halfRow r b) j))
include hA1 hA2

theorem mean_spec (j : Fin 128) : mean A1 (ix2 (0 : Fin 1) j) = kMean (fun b i => X (ix2 b i)) j := by
  rw [mean_apply, hA1, hA1, halfRow_zero, halfRow_eight]
  rfl

theorem var_spec (j : Fin 128) : var A1 A2 (ix2 (0 : Fin 1) j) = kVar (fun b i => X (ix2 b i)) j := by
  rw [var_apply, mean_spec X A1 A2 hA1 hA2, hA2, hA2, halfRow_zero, halfRow_eight]
  rfl

theorem scale_spec (γ : FVec Ideal S128 .f32) (j : Fin 128) :
    scale A1 A2 γ (ix2 (0 : Fin 1) j) = kScale (fun b i => X (ix2 b i)) (fun i => γ (ix1 i)) j := by
  rw [scale_apply, var_spec X A1 A2 hA1 hA2]
  rfl

theorem shift_spec (γ β : FVec Ideal S128 .f32) (j : Fin 128) :
    shift A1 A2 γ β (ix2 (0 : Fin 1) j)
      = kShift (fun b i => X (ix2 b i)) (fun i => γ (ix1 i)) (fun i => β (ix1 i)) j := by
  rw [shift_apply, mean_spec X A1 A2 hA1 hA2, scale_spec X A1 A2 hA1 hA2]
  rfl

/-- The second region's weight input is the folded weight of the specification. -/
theorem wfold_spec (w : FVec Ideal S128x128 .f32) (γ α : FVec Ideal S128 .f32) (i o : Fin 128) :
    wfold A1 A2 w γ α (ix2 i o)
      = kScale (fun b i => X (ix2 b i)) (fun i => γ (ix1 i)) i * tern (w (ix2 o i)) (α (ix1 i)) := by
  rw [wfold_apply, scale_spec X A1 A2 hA1 hA2]

/-- The second region's bias input is the folded bias of the specification. -/
theorem bfold_spec (w : FVec Ideal S128x128 .f32) (bias γ β α : FVec Ideal S128 .f32) (o : Fin 128) :
    bfold A1 A2 w bias γ β α (ix2 (0 : Fin 1) o)
      = (∑ i : Fin 128, kShift (fun b i => X (ix2 b i)) (fun i => γ (ix1 i)) (fun i => β (ix1 i)) i
            * tern (w (ix2 o i)) (α (ix1 i))) + bias (ix1 o) := by
  rw [bfold_apply]
  refine congrArg (· + bias (ix1 o)) (Finset.sum_congr rfl fun i _ => ?_)
  rw [shift_spec X A1 A2 hA1 hA2]
end

end Cert.KernelIdeal.HostMid

end
-- ==== Proof.StatsPieces.lean ====
/-
  What each control case of the statistics kernel's body leaves in its two accumulator blocks, as the stores' payloads.

  The body loads its 16384 × 128 block x of the input, and (only at the first step of a core's run) stores a zero block
  into both accumulators; it then stores acc + colsum(x) into the first and acc + colsum(x·x) into the second, acc being
  what the accumulator held: the zero block just stored in the first case, the block the step before left otherwise.
  Each accumulator is covered by one last store through the whole buffer, so what it holds afterwards is that store's
  payload, its loads reading the whole buffers.
-/
import proofs.«115951_j65661460021995_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats
open Cert.KernelIdeal Cert.KernelIdeal.Gen

variable {F : FTy → Type} [FloatOps F]

/-- The zero offsets of a store or load through a whole two-axis buffer. -/
theorem hz : (![0, 0] : Fin 2 → Nat) = fun _ => 0 := funext fun a => by fin_cases a <;> rfl

/-- A later step: the first accumulator, holding `xo1`, is left at `xo1 + colsum x`. -/
theorem out_B_1 (c : Dev nD) (i : grid0.Coords) (a2 : Memref sig .tc .vmem S16384x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S16384x128 .f32) (xo1 xo2 : Vec F S8x128 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S8x128) hz,
    View.ld_unit_zero (S := S16384x128) hz]

/-- A later step: the second accumulator, holding `xo2`, is left at `xo2 + colsum (x·x)`. -/
theorem out_B_2 (c : Dev nD) (i : grid0.Coords) (a2 : Memref sig .tc .vmem S16384x128 .f32) (h2 : a2.IsWhole)
    (a3 : Memref sig .tc .vmem S8x128 .f32) (h3 : a3.IsWhole) (a4 : Memref sig .tc .vmem S8x128 .f32) (h4 : a4.IsWhole)
    (hc : ¬cond0_0 i) (x : Vec F S16384x128 .f32) (xo1 xo2 : Vec F S8x128 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S8x128) hz,
    View.ld_unit_zero (S := S16384x128) hz]

/-- A first step: the first accumulator is zeroed, read back, and left at `0 + colsum x`. -/
theorem out_A_1 (c : Dev nD) (i : grid0.Coords) (a2 : Memref sig .tc .vmem S16384x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S16384x128 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S16384x128) hz]

/-- A first step: the second accumulator is zeroed, read back, and left at `0 + colsum (x·x)`. -/
theorem out_A_2 (c : Dev nD) (i : grid0.Coords) (a2 : Memref sig .tc .vmem S16384x128 .f32) (h2 : a2.IsWhole)
    (a3 : Memref sig .tc .vmem S8x128 .f32) (h3 : a3.IsWhole) (a4 : Memref sig .tc .vmem S8x128 .f32) (h4 : a4.IsWhole)
    (hc : cond0_0 i) (x : Vec F S16384x128 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S16384x128) hz]

end Cert.KernelIdeal.Stats
end
-- ==== Proof.StatsPayload.lean ====
/-
  The statistics kernel's stored values read at an index, over the extended reals.

  With x the 16384 × 128 input block of a step and acc an 8 × 128 accumulator block,
    (acc + colsum x)[r, j]       = acc[r, j] + ∑ₖ x[k, j],
    (acc + colsum (x·x))[r, j]   = acc[r, j] + ∑ₖ x[k, j] · x[k, j],
  the sum over the block's 16384 rows: the column reduction is the sum over the dropped axis, and its cast to one row
  and broadcast to eight rows read that sum at every row. The zero block reads 0 everywhere.
-/
import proofs.«115951_j65661460021995_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Stats
open Cert.KernelIdeal Cert.KernelIdeal.Gen Idealize.ShloMosaic.ValueIdx

/-- The source index of a column reduction: column `j` with the row `k` put back. -/
theorem lift_eq (h : S16384x128.Reduces [0] S128) (j : Fin 128) (k : Fin 16384) :
    h.lift (ix1 j) k = ix2 k j := by
  funext a
  match a with
  | ⟨0, _⟩ => exact Fin.ext rfl
  | ⟨1, _⟩ => exact Fin.ext rfl

/-- The column sums of a 16384 × 128 block, cast to one row and broadcast to eight, read at `(r, j)`: the sum of
    column `j`. -/
theorem colsum8_apply (v : FVec Ideal S16384x128 .f32) (h : S16384x128.Reduces [0] S128) (hφ : FKind.Formats FTy.f32)
    (hacc : (0x00000000#32 : BitVec 32) = FKind.add.neutral FTy.f32 hφ)
    (h1 : S128.ShapeCasts S1x128) (h2 : S1x128.ShapeCasts S1x128) (h3 : S1x128.Broadcasts S8x128) (r : Fin 8) (j : Fin 128) :
    broadcastTo S8x128 (shapeCast S1x128 (shapeCast S1x128 (multiReduction .add [0] S128 v 0x00000000#32 h hφ hacc) h1) h2) h3 (ix2 r j)
      = ∑ k : Fin 16384, v (ix2 k j) := by
  refine (broadcastTo_1b_ab_apply _ h3 r j).trans ?_
  rw [shapeCast_self]
  refine (shapeCast_a_1a_apply _ h1 (0 : Fin 1) j).trans ?_
  refine (Ideal.multiReduction_add_single v 0x00000000#32 h hφ hacc (ix1 j)).trans ?_
  exact Finset.sum_congr rfl fun k _ => congrArg v (lift_eq h j k)

/-- The first accumulator's stored value at `(r, j)`. -/
theorem pay3_apply (x : Vec Ideal S16384x128 .f32) (acc : Vec Ideal S8x128 .f32) (r : Fin 8) (j : Fin 128) :
    k0_pay3 (F := Ideal) x acc (ix2 r j) = acc (ix2 r j) + ∑ k : Fin 16384, x (ix2 k j) := by
  unfold k0_pay3
  dsimp only
  refine (addf_apply _ _ _).trans ?_
  rw [shapeCast_self]
  exact congrArg (acc (ix2 r j) + ·) (colsum8_apply x _ _ _ _ _ _ r j)

/-- The second accumulator's stored value at `(r, j)`. -/
theorem pay4_apply (x : Vec Ideal S16384x128 .f32) (acc : Vec Ideal S8x128 .f32) (r : Fin 8) (j : Fin 128) :
    k0_pay4 (F := Ideal) x acc (ix2 r j) = acc (ix2 r j) + ∑ k : Fin 16384, x (ix2 k j) * x (ix2 k j) := by
  unfold k0_pay4
  dsimp only
  refine (addf_apply _ _ _).trans ?_
  rw [shapeCast_self]
  exact congrArg (acc (ix2 r j) + ·) (colsum8_apply (mulf x x) _ _ _ _ _ _ r j)

/-- The zero blocks a first step stores read 0. -/
theorem pay1_apply (i : S8x128.Idx) : k0_pay1 (F := Ideal) i = 0 := Ideal.ofBits_zero_f32
theorem pay2_apply (i : S8x128.Idx) : k0_pay2 (F := Ideal) i = 0 := Ideal.ofBits_zero_f32

end Cert.KernelIdeal.Stats
end
-- ==== Proof.StatsSum.lean ====
/-
  Sixteen consecutive blocks of 16384 rows are one run of 262144 rows.

  For any g on the naturals and any q,
    ∑_{s < 16} ∑_{k < 16384} g((16·q + s)·16384 + k) = ∑_{b < 262144} g(q·262144 + b):
  both sides add g over the same run of consecutive naturals, the left one block of 16384 at a time.
-/
import Mathlib.Algebra.BigOperators.Fin
import Mathlib.Algebra.BigOperators.Intervals

namespace Cert.KernelIdeal.Stats

variable {M : Type*} [AddCommMonoid M]

/-- A sum over `m` consecutive blocks of `n` is the sum over the first `m · n` naturals. -/
theorem sum_range_blocks (g : ℕ → M) (n : ℕ) :
    ∀ m : ℕ, ∑ s ∈ Finset.range m, ∑ k ∈ Finset.range n, g (s * n + k) = ∑ b ∈ Finset.range (m * n), g b
  | 0 => by rw [Nat.zero_mul, Finset.sum_range_zero, Finset.sum_range_zero]
  | m + 1 => by rw [Finset.sum_range_succ, sum_range_blocks g n m, Nat.succ_mul, Finset.sum_range_add]

/-- The sixteen blocks of a core's run, summed block by block, are the core's half summed row by row. -/
theorem sum_blocks (g : ℕ → M) (q : ℕ) :
    ∑ s ∈ Finset.range 16, ∑ k : Fin 16384, g ((16 * q + s) * 16384 + k.val)
      = ∑ b : Fin 262144, g (q * 262144 + b.val) := by
  rw [← Finset.sum_range (fun b => g (q * 262144 + b))]
  refine Eq.trans (Finset.sum_congr rfl fun s _ => ?_) (sum_range_blocks (fun b => g (q * 262144 + b)) 16384 16)
  rw [← Finset.sum_range (fun k => g ((16 * q + s) * 16384 + k))]
  exact Finset.sum_congr rfl fun k _ => congrArg g (by omega)

end Cert.KernelIdeal.Stats
-- ==== Proof.StatsFold.lean ====
/-
  What the two accumulator blocks hold after the last step of a core's run.

  The statistics kernel visits 32 points t; point t reads block t of x (rows 16384·t … 16384·t + 16383) and belongs to
  core t / 16. At a core's first step (t ≡ 0 mod 16) an accumulator is left at 0 + (the block's column sums); at each
  later step at (what the step before left) + (the block's column sums). So after the core's last step (t ≡ 15 mod 16)
  it holds, in every one of its eight rows, the column sums over the sixteen blocks 16·(t/16) … 16·(t/16) + 15: the
  262144 rows of the core's half of x. The same for the second accumulator with squares.
-/
import proofs.«115951_j65661460021995_2_alg».proof.Proof.StatsPieces
import proofs.«115951_j65661460021995_2_alg».proof.Proof.StatsPayload
import proofs.«115951_j65661460021995_2_alg».proof.Proof.StatsSum
import proofs.«115951_j65661460021995_2_alg».proof.Proof.Spec

noncomputable section

open Idealize.ShloMosaic Idealize.ShloMosaic.TcCoe Idealize.SL.Sem

namespace Cert.KernelIdeal.Stats
open Cert.KernelIdeal Cert.KernelIdeal.Gen Idealize.ShloMosaic.ValueIdx Cert.Bridge
variable (V : (c : Dev nD) → (b : Ref sig .tc) → Buf (Elt Ideal) ((c : Thread nD τ).loc b))

/-- x as the first region finds it. -/
abbrev xin (c : Dev nD) : S524288x128.Idx → EReal := V c (Pipeline.arrRef spec0 0)

/-- Column `j` of x as a function of the row number (0 past the array's last row, where it is never read). -/
def col (c : Dev nD) (j : Fin 128) (n : ℕ) : EReal := if h : n < 524288 then xin V c (ix2 ⟨n, h⟩ j) else 0

/-- The input's block index at point `t` is `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The input block of point `t` at `(k, j)` is x at row `16384·t + k`, column `j`. -/
theorem iblk_apply (c : Dev nD) (t : Fin cfg0.N) (k : Fin 16384) (j : Fin 128) :
    (iblk0 V c 0 t : Vec Ideal S16384x128 .f32) (ix2 k j) = col V c j (t.val * 16384 + k.val) := by
  have ht : t.val < 32 := lt_of_lt_of_eq t.isLt (show cfg0.N = 32 from N_0)
  have hlt : t.val * 16384 + k.val < 524288 := by have := k.isLt; omega
  unfold col
  rw [dif_pos hlt]
  unfold iblk0
  rw [View.read_apply]
  show V c (Pipeline.arrRef spec0 0) _ = V c (Pipeline.arrRef spec0 0) _
  congr 1
  funext a
  apply Fin.ext
  match a with
  | ⟨0, _⟩ => show win0_0.index t 0 * 16384 + 1 * k.val = t.val * 16384 + k.val; rw [(idx0 t).1]; omega
  | ⟨1, _⟩ => show win0_0.index t 1 * 128 + 1 * j.val = j.val; rw [(idx0 t).2]; omega

/-- What point `n` adds to accumulator 1 at an index: the column's sum of x over the rows of block `n`. -/
def addend1 (c : Dev nD) (n : ℕ) (i : S8x128.Idx) : EReal :=
  ∑ k : Fin 16384, col V c (i 1) (n * 16384 + k.val)

/-- A first step of a core's run leaves accumulator 1 at its stored value over the zero block. -/
theorem reset1 (c : Dev nD) (n : ℕ) (h : n < cfg0.N) (hm : n % 16 = 0) :
    (outsAt0 V c n h).1 = k0_pay3 (iblk0 V c 0 ⟨n, h⟩) (k0_pay1 (F := Ideal)) :=
  (congrArg Prod.fst (outsAt0_A V c ⟨n, h⟩ hm)).trans
    (out_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) ((hcond0_0 ⟨n, h⟩).mpr hm) (iblk0 V c 0 ⟨n, h⟩))

/-- A later step leaves accumulator 1 at its stored value over what the step before left. -/
theorem step1 (c : Dev nD) (n : ℕ) (h : n + 1 < cfg0.N) (hm : ¬(n + 1) % 16 = 0) :
    (outsAt0 V c (n + 1) h).1
      = k0_pay3 (iblk0 V c 0 ⟨n + 1, h⟩) (outsAt0 V c n (Nat.lt_of_succ_lt h)).1 :=
  (congrArg Prod.fst (outsAt0_B V c ⟨n + 1, h⟩ hm)).trans
    (out_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hm ((hcond0_0 ⟨n + 1, h⟩).mp hh)) (iblk0 V c 0 ⟨n + 1, h⟩)
      (outsAt0 V c n (Nat.lt_of_succ_lt h)).1 (outsAt0 V c n (Nat.lt_of_succ_lt h)).2)

/-- The stored value of accumulator 1 at point `n` over `acc`, at an index: `acc` plus the point's addend. -/
theorem pay1_point (c : Dev nD) (n : ℕ) (h : n < cfg0.N) (acc : Vec Ideal S8x128 .f32) (i : S8x128.Idx) :
    k0_pay3 (F := Ideal) (iblk0 V c 0 ⟨n, h⟩) acc i = acc i + addend1 V c n i := by
  obtain ⟨r, j, rfl⟩ : ∃ (r : Fin 8) (j : Fin 128), i = ix2 r j := ⟨i 0, i 1, eq_ix2 i⟩
  refine (pay3_apply _ acc r j).trans (congrArg (acc (ix2 r j) + ·) ?_)
  exact Finset.sum_congr rfl fun k _ => iblk_apply V c ⟨n, h⟩ k j

/-- After the last step of a core's run accumulator 1 holds, at every row, the column's sum of x over the core's
    half of the rows. -/
theorem acc1_eq (c : Dev nD) (t : Fin cfg0.N) (hf : t.val % 16 = 15) (i : S8x128.Idx) :
    (outsAt0 V c t.val t.isLt).1 i
      = ∑ b : Fin 262144, col V c (i 1) (t.val / 16 * 262144 + b.val) := by
  have h' : 16 * (t.val / 16) + t.val % 16 < cfg0.N := by rw [Nat.div_add_mod]; exact t.isLt
  refine (congrFun (Pipeline.eq_accAt_of_mod (fun n h => (outsAt0 V c n h).1) 16
    (fun n h => k0_pay3 (iblk0 V c 0 ⟨n, h⟩) (k0_pay1 (F := Ideal)))
    (fun n h acc => k0_pay3 (iblk0 V c 0 ⟨n, h⟩) acc)
    (reset1 V c) (step1 V c) (by decide) t.val t.isLt h') i).trans ?_
  refine (Pipeline.accAt_add_apply
    (fun n h => k0_pay3 (iblk0 V c 0 ⟨n, h⟩) (k0_pay1 (F := Ideal)))
    (fun n h acc => k0_pay3 (iblk0 V c 0 ⟨n, h⟩) acc)
    (fun _ => (0 : EReal)) (addend1 V c) (16 * (t.val / 16)) 15
    (fun h i => (pay1_point V c _ h _ i).trans (congrArg (· + addend1 V c _ i) (pay1_apply i)))
    (fun n h acc i _ _ => pay1_point V c n h acc i) (t.val % 16) (by omega) h' i).trans ?_
  rw [hf, zero_add]
  exact sum_blocks (fun n => col V c (i 1) n) (t.val / 16)

/-- What point `n` adds to accumulator 2 at an index: the column's sum of x·x over the rows of block `n`. -/
def addend2 (c : Dev nD) (n : ℕ) (i : S8x128.Idx) : EReal :=
  ∑ k : Fin 16384, col V c (i 1) (n * 16384 + k.val) * col V c (i 1) (n * 16384 + k.val)

/-- A first step of a core's run leaves accumulator 2 at its stored value over the zero block. -/
theorem reset2 (c : Dev nD) (n : ℕ) (h : n < cfg0.N) (hm : n % 16 = 0) :
    (outsAt0 V c n h).2 = k0_pay4 (iblk0 V c 0 ⟨n, h⟩) (k0_pay2 (F := Ideal)) :=
  (congrArg Prod.snd (outsAt0_A V c ⟨n, h⟩ hm)).trans
    (out_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) ((hcond0_0 ⟨n, h⟩).mpr hm) (iblk0 V c 0 ⟨n, h⟩))

/-- A later step leaves accumulator 2 at its stored value over what the step before left. -/
theorem step2 (c : Dev nD) (n : ℕ) (h : n + 1 < cfg0.N) (hm : ¬(n + 1) % 16 = 0) :
    (outsAt0 V c (n + 1) h).2
      = k0_pay4 (iblk0 V c 0 ⟨n + 1, h⟩) (outsAt0 V c n (Nat.lt_of_succ_lt h)).2 :=
  (congrArg Prod.snd (outsAt0_B V c ⟨n + 1, h⟩ hm)).trans
    (out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (fun hh => hm ((hcond0_0 ⟨n + 1, h⟩).mp hh)) (iblk0 V c 0 ⟨n + 1, h⟩)
      (outsAt0 V c n (Nat.lt_of_succ_lt h)).1 (outsAt0 V c n (Nat.lt_of_succ_lt h)).2)

/-- The stored value of accumulator 2 at point `n` over `acc`, at an index: `acc` plus the point's addend. -/
theorem pay2_point (c : Dev nD) (n : ℕ) (h : n < cfg0.N) (acc : Vec Ideal S8x128 .f32) (i : S8x128.Idx) :
    k0_pay4 (F := Ideal) (iblk0 V c 0 ⟨n, h⟩) acc i = acc i + addend2 V c n i := by
  obtain ⟨r, j, rfl⟩ : ∃ (r : Fin 8) (j : Fin 128), i = ix2 r j := ⟨i 0, i 1, eq_ix2 i⟩
  refine (pay4_apply _ acc r j).trans (congrArg (acc (ix2 r j) + ·) ?_)
  exact Finset.sum_congr rfl fun k _ => congrArg₂ (· * ·) (iblk_apply V c ⟨n, h⟩ k j) (iblk_apply V c ⟨n, h⟩ k j)

/-- After the last step of a core's run accumulator 2 holds, at every row, the column's sum of x·x over the core's
    half of the rows. -/
theorem acc2_eq (c : Dev nD) (t : Fin cfg0.N) (hf : t.val % 16 = 15) (i : S8x128.Idx) :
    (outsAt0 V c t.val t.isLt).2 i
      = ∑ b : Fin 262144, col V c (i 1) (t.val / 16 * 262144 + b.val) * col V c (i 1) (t.val / 16 * 262144 + b.val) := by
  have h' : 16 * (t.val / 16) + t.val % 16 < cfg0.N := by rw [Nat.div_add_mod]; exact t.isLt
  refine (congrFun (Pipeline.eq_accAt_of_mod (fun n h => (outsAt0 V c n h).2) 16
    (fun n h => k0_pay4 (iblk0 V c 0 ⟨n, h⟩) (k0_pay2 (F := Ideal)))
    (fun n h acc => k0_pay4 (iblk0 V c 0 ⟨n, h⟩) acc)
    (reset2 V c) (step2 V c) (by decide) t.val t.isLt h') i).trans ?_
  refine (Pipeline.accAt_add_apply
    (fun n h => k0_pay4 (iblk0 V c 0 ⟨n, h⟩) (k0_pay2 (F := Ideal)))
    (fun n h acc => k0_pay4 (iblk0 V c 0 ⟨n, h⟩) acc)
    (fun _ => (0 : EReal)) (addend2 V c) (16 * (t.val / 16)) 15
    (fun h i => (pay2_point V c _ h _ i).trans (congrArg (· + addend2 V c _ i) (pay2_apply i)))
    (fun n h acc i _ _ => pay2_point V c n h acc i) (t.val % 16) (by omega) h' i).trans ?_
  rw [hf, zero_add]
  exact sum_blocks (fun n => col V c (i 1) n * col V c (i 1) n) (t.val / 16)

end Cert.KernelIdeal.Stats
end
-- ==== Proof.StatsValue.lean ====
/-
  The value the statistics region leaves in its two output arrays.

  Each of the two 16 × 128 output arrays is written back twice, once per core: the block of rows 8·q … 8·q + 7 after
  core q's last step (points 15 and 31), holding in every row the column sums (of x, or of x·x) over core q's half of
  the rows of x, rows 262144·q … 262144·q + 262143. The two blocks cover the array, so row r of the array holds the
  column sums over the half r / 8.
-/
import proofs.«115951_j65661460021995_2_alg».proof.Proof.StatsFold

noncomputable section

open Idealize.ShloMosaic Idealize.ShloMosaic.TcCoe Idealize.SL.Sem
open Idealize.ShloMosaic.Pipeline (Dat)

namespace Cert.KernelIdeal.Stats
open Cert.KernelIdeal Cert.KernelIdeal.Gen Idealize.ShloMosaic.ValueIdx Cert.Bridge
variable (V : (c : Dev nD) → (b : Ref sig .tc) → Buf (Elt Ideal) ((c : Thread nD τ).loc b))

/-- The first accumulator array after the region: row `r`, column `j` holds the sum of x over the rows of
    the half of x that row `r` belongs to. -/
def G1 (c : Dev nD) : S16x128.Idx → EReal :=
  fun i => ∑ b : Fin 262144, xin V c (ix2 (halfRow (i 0) b) (i 1))

/-- Output window 1's block index at point `t` is `(t / 16, 0)`: the core's own block. -/
theorem idx1 : ∀ t : Fin cfg0.N, win0_1.index t 0 = t.val / 16 ∧ win0_1.index t 1 = 0 :=
  (by decide +kernel : ∀ t : Fin grid0.N, win0_1.index t 0 = t.val / 16 ∧ win0_1.index t 1 = 0)

/-- Its blocks are never cut: 8 × 128 at every point. -/
theorem xsize1 : ∀ t : Fin cfg0.N, win0_1.xsize (grid0.coords t) 0 = 8 ∧ win0_1.xsize (grid0.coords t) 1 = 128 :=
  (by decide +kernel : ∀ t : Fin grid0.N, win0_1.xsize (grid0.coords t) 0 = 8 ∧ win0_1.xsize (grid0.coords t) 1 = 128)

/-- What a core's last step writes back is its block of `G1`: element `(y₀, y₁)` of block `t / 16` is row
    `8·(t / 16) + y₀` of the array, whose half is `t / 16`. -/
theorem flushed1_eq (c : Dev nD) (t : Fin cfg0.N) (hf : (cfg0.win 1).flush t = true) :
    (dat0 V c).flushed 1 t = ((cfg0.win 1).blk t).view.read (Elt Ideal) (G1 V c) := by
  have h15 : t.val % 16 = 15 := (flush0_1 t).mp hf
  have ht : t.val < 32 := lt_of_lt_of_eq t.isLt (show cfg0.N = 32 from N_0)
  show (cfg0.win 1).cut (grid0.coords t) ((dat0 V c).after 1 t) = _
  rw [after0_1]
  funext y
  rw [View.read_apply, cast_eq]
  refine (acc1_eq V c t h15 _).trans ?_
  unfold G1
  refine Finset.sum_congr rfl fun b _ => ?_
  have hy0 : (y 0).val < 8 := (y 0).isLt
  have hb : b.val < 262144 := b.isLt
  unfold col
  rw [dif_pos (by omega : t.val / 16 * 262144 + b.val < 524288)]
  have hidx : (ix2 ⟨t.val / 16 * 262144 + b.val, by omega⟩ ((cfg0.win 1).xinj (grid0.coords t) y 1) : S524288x128.Idx)
      = ix2 (halfRow (((cfg0.win 1).blk t).view.emb y 0) b) (((cfg0.win 1).blk t).view.emb y 1) := by
    refine funext fun a => Fin.ext ?_
    match a with
    | ⟨0, _⟩ =>
      show t.val / 16 * 262144 + b.val = (win0_1.index t 0 * 8 + 1 * (y 0).val) / 8 * 262144 + b.val
      rw [(idx1 t).1]; omega
    | ⟨1, _⟩ =>
      show (y 1).val = win0_1.index t 1 * 128 + 1 * (y 1).val
      rw [(idx1 t).2]; omega
  exact congrArg (xin V c) hidx

/-- Every row of the array lies in the block some core's last step writes back: rows 0–7 in point 15's, 8–15 in point 31's. -/
theorem cover1 (i : S16x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hlt : 16 * ((i 0).val / 8) + 15 < cfg0.N := by rw [show cfg0.N = 32 from N_0]; omega
  refine ⟨⟨16 * ((i 0).val / 8) + 15, hlt⟩, (flush0_1 _).mpr (by show (16 * ((i 0).val / 8) + 15) % 16 = 15; omega), ?_⟩
  show i ∈ ((View.whole main_v0_0).slice (win0_1.rect ⟨16 * ((i 0).val / 8) + 15, hlt⟩)).set
  rw [View.set_slice_whole, Rect.mem_set_unit]
  intro a
  match a with
  | ⟨0, _⟩ =>
    show win0_1.index ⟨16 * ((i 0).val / 8) + 15, hlt⟩ 0 * 8 ≤ (i 0 : Nat)
      ∧ (i 0 : Nat) < win0_1.index ⟨16 * ((i 0).val / 8) + 15, hlt⟩ 0 * 8 + win0_1.xsize (grid0.coords ⟨16 * ((i 0).val / 8) + 15, hlt⟩) 0
    rw [(idx1 _).1, (xsize1 _).1]
    show (16 * ((i 0).val / 8) + 15) / 16 * 8 ≤ (i 0 : Nat) ∧ (i 0 : Nat) < (16 * ((i 0).val / 8) + 15) / 16 * 8 + 8
    omega
  | ⟨1, _⟩ =>
    show win0_1.index ⟨16 * ((i 0).val / 8) + 15, hlt⟩ 1 * 128 ≤ (i 1 : Nat)
      ∧ (i 1 : Nat) < win0_1.index ⟨16 * ((i 0).val / 8) + 15, hlt⟩ 1 * 128 + win0_1.xsize (grid0.coords ⟨16 * ((i 0).val / 8) + 15, hlt⟩) 1
    rw [(idx1 _).2, (xsize1 _).2]
    omega

/-- So the array ends holding `G1`. -/
theorem final1 (c : Dev nD) : (dat0 (F := Ideal) V c).arrAt 1 cfg0.N = G1 V c :=
  (dat0 V c).arrAt_eq_of_cover 1 (G1 V c) (flushed1_eq V c) cover1

/-- The second accumulator array after the region: row `r`, column `j` holds the sum of x·x over the rows of
    the half of x that row `r` belongs to. -/
def G2 (c : Dev nD) : S16x128.Idx → EReal :=
  fun i => ∑ b : Fin 262144, xin V c (ix2 (halfRow (i 0) b) (i 1)) * xin V c (ix2 (halfRow (i 0) b) (i 1))

/-- Output window 2's block index at point `t` is `(t / 16, 0)`: the core's own block. -/
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)

/-- Its blocks are never cut: 8 × 128 at every point. -/
theorem xsize2 : ∀ t : Fin cfg0.N, win0_2.xsize (grid0.coords t) 0 = 8 ∧ win0_2.xsize (grid0.coords t) 1 = 128 :=
  (by decide +kernel : ∀ t : Fin grid0.N, win0_2.xsize (grid0.coords t) 0 = 8 ∧ win0_2.xsize (grid0.coords t) 1 = 128)

/-- What a core's last step writes back is its block of `G2`: element `(y₀, y₁)` of block `t / 16` is row
    `8·(t / 16) + y₀` of the array, whose half is `t / 16`. -/
theorem flushed2_eq (c : Dev nD) (t : Fin cfg0.N) (hf : (cfg0.win 2).flush t = true) :
    (dat0 V c).flushed 2 t = ((cfg0.win 2).blk t).view.read (Elt Ideal) (G2 V c) := by
  have h15 : t.val % 16 = 15 := (flush0_2 t).mp hf
  have ht : t.val < 32 := lt_of_lt_of_eq t.isLt (show cfg0.N = 32 from N_0)
  show (cfg0.win 2).cut (grid0.coords t) ((dat0 V c).after 2 t) = _
  rw [after0_2]
  funext y
  rw [View.read_apply, cast_eq]
  refine (acc2_eq V c t h15 _).trans ?_
  unfold G2
  refine Finset.sum_congr rfl fun b _ => ?_
  have hy0 : (y 0).val < 8 := (y 0).isLt
  have hb : b.val < 262144 := b.isLt
  unfold col
  rw [dif_pos (by omega : t.val / 16 * 262144 + b.val < 524288)]
  have hidx : (ix2 ⟨t.val / 16 * 262144 + b.val, by omega⟩ ((cfg0.win 2).xinj (grid0.coords t) y 1) : S524288x128.Idx)
      = ix2 (halfRow (((cfg0.win 2).blk t).view.emb y 0) b) (((cfg0.win 2).blk t).view.emb y 1) := by
    refine funext fun a => Fin.ext ?_
    match a with
    | ⟨0, _⟩ =>
      show t.val / 16 * 262144 + b.val = (win0_2.index t 0 * 8 + 1 * (y 0).val) / 8 * 262144 + b.val
      rw [(idx2 t).1]; omega
    | ⟨1, _⟩ =>
      show (y 1).val = win0_2.index t 1 * 128 + 1 * (y 1).val
      rw [(idx2 t).2]; omega
  exact congrArg (fun k => xin V c k * xin V c k) hidx

/-- Every row of the array lies in the block some core's last step writes back: rows 0–7 in point 15's, 8–15 in point 31's. -/
theorem cover2 (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hlt : 16 * ((i 0).val / 8) + 15 < cfg0.N := by rw [show cfg0.N = 32 from N_0]; omega
  refine ⟨⟨16 * ((i 0).val / 8) + 15, hlt⟩, (flush0_2 _).mpr (by show (16 * ((i 0).val / 8) + 15) % 16 = 15; omega), ?_⟩
  show i ∈ ((View.whole main_v0_1).slice (win0_2.rect ⟨16 * ((i 0).val / 8) + 15, hlt⟩)).set
  rw [View.set_slice_whole, Rect.mem_set_unit]
  intro a
  match a with
  | ⟨0, _⟩ =>
    show win0_2.index ⟨16 * ((i 0).val / 8) + 15, hlt⟩ 0 * 8 ≤ (i 0 : Nat)
      ∧ (i 0 : Nat) < win0_2.index ⟨16 * ((i 0).val / 8) + 15, hlt⟩ 0 * 8 + win0_2.xsize (grid0.coords ⟨16 * ((i 0).val / 8) + 15, hlt⟩) 0
    rw [(idx2 _).1, (xsize2 _).1]
    show (16 * ((i 0).val / 8) + 15) / 16 * 8 ≤ (i 0 : Nat) ∧ (i 0 : Nat) < (16 * ((i 0).val / 8) + 15) / 16 * 8 + 8
    omega
  | ⟨1, _⟩ =>
    show win0_2.index ⟨16 * ((i 0).val / 8) + 15, hlt⟩ 1 * 128 ≤ (i 1 : Nat)
      ∧ (i 1 : Nat) < win0_2.index ⟨16 * ((i 0).val / 8) + 15, hlt⟩ 1 * 128 + win0_2.xsize (grid0.coords ⟨16 * ((i 0).val / 8) + 15, hlt⟩) 1
    rw [(idx2 _).2, (xsize2 _).2]
    omega

/-- So the array ends holding `G2`. -/
theorem final2 (c : Dev nD) : (dat0 (F := Ideal) V c).arrAt 2 cfg0.N = G2 V c :=
  (dat0 V c).arrAt_eq_of_cover 2 (G2 V c) (flushed2_eq V c) cover2

/-- The two accumulator arrays as the first region leaves them. -/
abbrev sumOut (c : Dev nD) : S16x128.Idx → EReal := (dat0 (F := Ideal) V c).arrAt 1 cfg0.N
abbrev sumsqOut (c : Dev nD) : S16x128.Idx → EReal := (dat0 (F := Ideal) V c).arrAt 2 cfg0.N

theorem sum_final (c : Dev nD) (r : Fin 16) (j : Fin 128) :
    sumOut V c (ix2 r j) = ∑ b : Fin 262144, xin V c (ix2 (halfRow r b) j) :=
  congrFun (final1 V c) (ix2 r j)

theorem sumsq_final (c : Dev nD) (r : Fin 16) (j : Fin 128) :
    sumsqOut V c (ix2 r j) = ∑ b : Fin 262144, xin V c (ix2 (halfRow r b) j) * xin V c (ix2 (halfRow r b) j) :=
  congrFun (final2 V c) (ix2 r j)

end Cert.KernelIdeal.Stats
end
-- ==== Proof.ProductPayload.lean ====
/-
  One entry of what the second kernel region's body stores.

  The body takes a block X of 8192 rows of x, the whole 128 × 128 weight W and the 1 × 128 bias row B, and
  stores  matmul (truncf X) W 0 + broadcast B.  On the extended reals the change of format is the identity,
  the product into the zero accumulator is the row-by-column sum, and the broadcast of the single bias row
  repeats it on every row, so entry (p, q) of the stored block is

      ∑ₖ X[p, k] · W[k, q]  +  B[0, q].
-/
import proofs.«115951_j65661460021995_2_alg».proof.Proof.Gen.KernelIdeal.Skeleton
import proofs.«115951_j65661460021995_2_alg».proof.Proof.LibDotRows
import Idealize.ShloMosaic.Lib.Pipeline.Value
import Idealize.ShloMosaic.Lib.ValueIdx

noncomputable section

namespace Cert.KernelIdeal.Product

open Idealize.ShloMosaic Idealize.ShloMosaic.ValueIdx
open Cert.KernelIdeal Cert.KernelIdeal.Gen

/-- The bias row broadcast over the 8192 rows of a block reads, at (p, q), the row's entry q. -/
theorem biasRows_ix2 (v : FVec Ideal S1x128 .f32) (p : Fin 8192) (q : Fin 128) :
    broadcastTo S8192x128 v Facts₀.broadcasts_S1x128_S8192x128 (ix2 p q) = v (ix2 (0 : Fin 1) q) := by
  refine broadcastTo_apply v _ (ix2 p q) (ix2 (0 : Fin 1) q) fun a => ?_
  match a with
  | ⟨0, _⟩ => rfl
  | ⟨1, _⟩ => rfl

/-- Entry (p, q) of the stored block: row p of the block of x against column q of the weight, plus the bias at q. -/
theorem payload_ix2 (x0 : Vec Ideal S8192x128 .f32) (x1 : Vec Ideal S128x128 .bf16) (x2 : Vec Ideal S1x128 .f32)
    (p : Fin 8192) (q : Fin 128) :
    k1_pay1 (F := Ideal) x0 x1 x2 (ix2 p q)
      = (∑ k : Fin 128, x0 (ix2 p k) * x1 (ix2 k q)) + x2 (ix2 (0 : Fin 1) q) := by
  unfold k1_pay1
  rw [addf_apply, shapeCast_self, shapeCast_self, biasRows_ix2]
  refine congrArg (· + x2 (ix2 (0 : Fin 1) q)) ?_
  exact DotRows.matmul_zero_ix2 dot_S8192x128_S128x128_S8192x128_1_0_0_1_n_n rfl rfl rfl rfl rfl rfl none
    (truncf .bf16 x0 Facts₀.bitsLt_bf16_f32) x1 p q

end Cert.KernelIdeal.Product

end
-- ==== Proof.ProductValue.lean ====
/-
  What the second kernel region leaves in its output array, entry by entry.

  The region runs on 64 grid points.  Point t stages rows 8192 t … 8192 t + 8191 of x (block (t, 0) of its
  array), the whole weight and the whole bias row (block (0, 0) of theirs), and writes what the body stores
  back to block (t, 0) of the 524288 × 128 output.  Entry (p, q) of what the body stores is
  ∑ₖ X[p, k] · W[k, q] + B[0, q] over the staged blocks, so row 8192 t + p of the output gets row
  8192 t + p of x against the weight, plus the bias: every point writes its block of ONE array

      out[b, o] = ∑ᵢ x[b, i] · w[i, o] + bias[0, o],

  and the 64 blocks tile the rows (row b lies in the block of point b / 8192), so that array is what the
  region leaves.
-/
import proofs.«115951_j65661460021995_2_alg».proof.Proof.Gen.KernelIdeal.Frame
import proofs.«115951_j65661460021995_2_alg».proof.Proof.ProductPayload
import Idealize.ShloMosaic.Lib.Pipeline.Value
import Idealize.ShloMosaic.Lib.ValueIdx

noncomputable section

open Idealize.ShloMosaic Idealize.ShloMosaic.TcCoe Idealize.SL.Sem

namespace Cert.KernelIdeal.Product

open Cert.KernelIdeal Cert.KernelIdeal.Gen Idealize.ShloMosaic.ValueIdx

variable (V : (c : Dev nD) → (b : Ref sig .tc) → Buf (Elt Ideal) ((c : Thread nD τ).loc b))

/-- The second region's three inputs as it finds them, and its output as it leaves it. -/
abbrev xin (c : Dev nD) : S524288x128.Idx → EReal := V c (Pipeline.arrRef spec1 0)
abbrev win (c : Dev nD) : S128x128.Idx → EReal := V c (Pipeline.arrRef spec1 1)
abbrev bin (c : Dev nD) : S1x128.Idx → EReal := V c (Pipeline.arrRef spec1 2)
abbrev out (c : Dev nD) : S524288x128.Idx → EReal := (dat1 (F := Ideal) V c).arrAt 3 cfg1.N

/-- Row b of x against column o of the weight, plus the bias at o. -/
def rowByColumn (c : Dev nD) (b : Fin 524288) (o : Fin 128) : EReal :=
  (∑ i : Fin 128, xin V c (ix2 b i) * win V c (ix2 i o)) + bin V c (ix2 (0 : Fin 1) o)

/-- The array of those entries. -/
def product (c : Dev nD) : S524288x128.Idx → EReal := fun j => rowByColumn V c (j 0) (j 1)

theorem hz : (![0, 0] : Fin 2 → Nat) = fun _ => 0 := funext fun a => by fin_cases a <;> rfl

/-- The printed index maps over the grid: x and the output move down one block of rows per point, the weight and the
    bias stay at their one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's block of x is rows 8192 t … 8192 t + 8191 of x. -/
theorem xBlock_apply (c : Dev nD) (t : Fin cfg1.N) (y : S8192x128.Idx) (j : S524288x128.Idx)
    (h0 : (j 0).val = 8192 * t.val + (y 0).val) (h1 : (j 1).val = (y 1).val) :
    (iblk1 V c 0 t : Vec Ideal S8192x128 .f32) y = xin V c j := by
  obtain ⟨e0, e1, -⟩ := index_facts t
  unfold iblk1
  rw [View.read_apply]
  show V c (Pipeline.arrRef spec1 0) _ = V c (Pipeline.arrRef spec1 0) j
  congr 1
  funext a
  apply Fin.ext
  match a with
  | ⟨0, _⟩ => show win1_0.index t (0 : Fin 2) * 8192 + 1 * (y 0).val = (j 0).val; rw [e0, h0]; omega
  | ⟨1, _⟩ => show win1_0.index t (1 : Fin 2) * 128 + 1 * (y 1).val = (j 1).val; rw [e1, h1]; omega

/-- Every point's block of the weight is the weight. -/
theorem wBlock_apply (c : Dev nD) (t : Fin cfg1.N) (y : S128x128.Idx) :
    (iblk1 V c 1 t : Vec Ideal S128x128 .bf16) y = win V c y := by
  obtain ⟨-, -, e0, e1, -⟩ := index_facts t
  unfold iblk1
  rw [View.read_apply]
  show V c (Pipeline.arrRef spec1 1) _ = V c (Pipeline.arrRef spec1 1) y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Every point's block of the bias is the bias row. -/
theorem bBlock_apply (c : Dev nD) (t : Fin cfg1.N) (y : S1x128.Idx) :
    (iblk1 V c 2 t : Vec Ideal S1x128 .f32) y = bin V c y := by
  obtain ⟨-, -, -, -, e0, e1, -⟩ := index_facts t
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Entry y of what the body stores at point t is entry (8192 t + y₀, y₁) of the product array. -/
theorem stored_apply (c : Dev nD) (t : Fin cfg1.N) (y : S8192x128.Idx) (j : S524288x128.Idx)
    (h0 : (j 0).val = 8192 * t.val + (y 0).val) (h1 : (j 1).val = (y 1).val) :
    k1_pay1 (F := Ideal) (iblk1 V c 0 t) (iblk1 V c 1 t) (iblk1 V c 2 t) y = product V c j := by
  obtain ⟨p, q, rfl⟩ : ∃ (p : Fin 8192) (q : Fin 128), y = ix2 p q := ⟨y 0, y 1, eq_ix2 y⟩
  obtain ⟨b, o, rfl⟩ : ∃ (b : Fin 524288) (o : Fin 128), j = ix2 b o := ⟨j 0, j 1, eq_ix2 j⟩
  have h0' : b.val = 8192 * t.val + p.val := h0
  have h1' : o = q := Fin.ext h1
  subst h1'
  refine (payload_ix2 (iblk1 V c 0 t) (iblk1 V c 1 t) (iblk1 V c 2 t) p o).trans ?_
  show _ = rowByColumn V c b o
  unfold rowByColumn
  refine congrArg₂ (· + ·) (Finset.sum_congr rfl fun k _ => congrArg₂ (· * ·) ?_ ?_) ?_
  · exact xBlock_apply V c t (ix2 p k) (ix2 b k) h0' rfl
  · exact wBlock_apply V c t (ix2 k o)
  · exact bBlock_apply V c t (ix2 (0 : Fin 1) o)

/-- What point t writes back is block t of the product array. -/
theorem flushed_eq (c : Dev nD) (t : Fin cfg1.N) :
    (dat1 (F := Ideal) V c).flushed 3 t = ((cfg1.win 3).blk t).view.read (Elt Ideal) (product V c) := by
  show (cfg1.win 3).cut (grid1.coords t) ((dat1 (F := Ideal) V c).after 3 t) = _
  rw [after1_3]
  unfold out1_3
  rw [View.canon_unit_zero hz]
  simp only [View.ld_unit_zero (S := S8192x128) hz, View.ld_unit_zero (S := S128x128) hz, View.ld_unit_zero (S := S1x128) hz]
  obtain ⟨-, -, -, -, -, -, e0, e1⟩ := index_facts t
  funext y
  show k1_pay1 (F := Ideal) (iblk1 V c 0 t) (iblk1 V c 1 t) (iblk1 V c 2 t) y = product V c (((cfg1.win 3).blk t).view.emb y)
  refine stored_apply V c t y _ ?_ ?_
  · show win1_3.index t (0 : Fin 2) * 8192 + 1 * (y 0).val = 8192 * t.val + (y 0).val
    rw [e0]; omega
  · show win1_3.index t (1 : Fin 2) * 128 + 1 * (y 1).val = (y 1).val
    rw [e1]; omega

/-- An index of the output is in point t's block iff each coordinate is in the block's range on its axis. -/
theorem mem_blk (t : Fin cfg1.N) (j : S524288x128.Idx) :
    j ∈ ((cfg1.win 3).blk t).view.set ↔ ∀ a : Fin 2, win1_3.index t a * S8192x128.size a ≤ (j a).val
      ∧ (j a).val < win1_3.index t a * S8192x128.size a + S8192x128.size a := by
  show j ∈ ((View.whole main_v39).slice (win1_3.rect t)).set ↔ _
  rw [View.set_slice_whole, Rect.mem_set_unit]
  exact Iff.rfl

/-- Row b of the output lies in the block of point b / 8192, which is written back. -/
theorem covered (j : S524288x128.Idx) :
    ∃ t : Fin cfg1.N, (cfg1.win 3).flush t = true ∧ j ∈ ((cfg1.win 3).blk t).view.set := by
  have hN : cfg1.N = 64 := N_1
  have hj0 : (j 0).val < 524288 := idx2_lt0 j
  have hj1 : (j 1).val < 128 := idx2_lt1 j
  let t : Fin cfg1.N := ⟨(j 0).val / 8192, by rw [hN]; omega⟩
  have ht : t.val = (j 0).val / 8192 := rfl
  obtain ⟨-, -, -, -, -, -, e0, e1⟩ := index_facts t
  refine ⟨t, flush1_3 t, ?_⟩
  rw [mem_blk]
  intro a
  match a with
  | ⟨0, _⟩ =>
    show win1_3.index t (0 : Fin 2) * 8192 ≤ (j 0).val ∧ (j 0).val < win1_3.index t (0 : Fin 2) * 8192 + 8192
    rw [e0, ht]; omega
  | ⟨1, _⟩ =>
    show win1_3.index t (1 : Fin 2) * 128 ≤ (j 1).val ∧ (j 1).val < win1_3.index t (1 : Fin 2) * 128 + 128
    rw [e1]; omega

/-- The output array after the region is the product array. -/
theorem out_eq (c : Dev nD) : out V c = product V c :=
  (dat1 (F := Ideal) V c).arrAt_eq_of_cover 3 (product V c) (fun t _ => flushed_eq V c t) covered

/-- THE VALUE: entry (b, o) of the output is row b of x against column o of the weight, plus the bias at o. -/
theorem out_final (c : Dev nD) (b : Fin 524288) (o : Fin 128) :
    out V c (ix2 b o) = (∑ i : Fin 128, xin V c (ix2 b i) * win V c (ix2 i o)) + bin V c (ix2 (0 : Fin 1) o) :=
  congrFun (out_eq V c) (ix2 b o)

end Cert.KernelIdeal.Product

end
-- ==== Proof.KernelValue.lean ====
/-
  The idealized kernel's result in the specification's vocabulary.
  The result buffer ends at what the second region's write-backs leave: ∑ᵢ x[b,i] · W[i,o] + B[0,o], where W and B are the
  two buffers the host operations between the regions computed from the first region's accumulators. Those accumulators
  hold the half totals of x and x², so W and B are the folded weight and folded bias, and the result is the kernel formula.
-/
import proofs.«115951_j65661460021995_2_alg».proof.Proof.Gen.KernelIdeal.Frame
import proofs.«115951_j65661460021995_2_alg».proof.Proof.HostRead
import proofs.«115951_j65661460021995_2_alg».proof.Proof.Spec
import proofs.«115951_j65661460021995_2_alg».proof.Proof.StatsValue
import proofs.«115951_j65661460021995_2_alg».proof.Proof.ProductValue
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.KernelValue

open Cert.KernelIdeal Cert.KernelIdeal.Gen Cert.KernelIdeal.HostMid Cert.Bridge
open Idealize.ShloMosaic.ValueIdx

variable (m : (ℓ : Loc nD τ sig) → Buf (Elt Ideal) ℓ) (ρ : Dev nD → PrngReg)

/-- The six arguments on core c as launched. -/
abbrev aX (c : Dev nD) : S524288x128.Idx → EReal := m ((c : Thread nD τ).loc main_arg0)
abbrev aW (c : Dev nD) : S128x128.Idx → EReal := m ((c : Thread nD τ).loc main_arg1)
abbrev aBias (c : Dev nD) : S128.Idx → EReal := m ((c : Thread nD τ).loc main_arg2)
abbrev aGamma (c : Dev nD) : S128.Idx → EReal := m ((c : Thread nD τ).loc main_arg3)
abbrev aBeta (c : Dev nD) : S128.Idx → EReal := m ((c : Thread nD τ).loc main_arg4)
abbrev aAlpha (c : Dev nD) : S128.Idx → EReal := m ((c : Thread nD τ).loc main_arg5)

/-! ## The first region's exit contents at the buffers the host stretch reads -/

theorem W1_x (c : Dev nD) : W1 m ρ c (Proc.devRef .tc main_arg0) = aX m c :=
  (W1_arr m ρ c 0).trans (((dat0 (V0 m ρ) c).arrAt_in 0 rfl _).trans (A_eq0 (V0 m ρ) c 0))

theorem W1_w (c : Dev nD) : W1 m ρ c (Proc.devRef .tc main_arg1) = aW m c :=
  W1_of_ne m ρ c main_arg1 (by decide)
theorem W1_bias (c : Dev nD) : W1 m ρ c (Proc.devRef .tc main_arg2) = aBias m c :=
  W1_of_ne m ρ c main_arg2 (by decide)
theorem W1_gamma (c : Dev nD) : W1 m ρ c (Proc.devRef .tc main_arg3) = aGamma m c :=
  W1_of_ne m ρ c main_arg3 (by decide)
theorem W1_beta (c : Dev nD) : W1 m ρ c (Proc.devRef .tc main_arg4) = aBeta m c :=
  W1_of_ne m ρ c main_arg4 (by decide)
theorem W1_alpha (c : Dev nD) : W1 m ρ c (Proc.devRef .tc main_arg5) = aAlpha m c :=
  W1_of_ne m ρ c main_arg5 (by decide)

/-- The two accumulator arrays at the first region's exit. -/
abbrev accSum (c : Dev nD) : S16x128.Idx → EReal := W1 m ρ c (Proc.devRef .tc main_v0_0)
abbrev accSq (c : Dev nD) : S16x128.Idx → EReal := W1 m ρ c (Proc.devRef .tc main_v0_1)

theorem accSum_apply (c : Dev nD) (r : Fin 16) (j : Fin 128) :
    accSum m ρ c (ix2 r j) = ∑ b : Fin 262144, aX m c (ix2 (halfRow r b) j) :=
  (congrFun (W1_arr m ρ c 1) (ix2 r j)).trans (Stats.sum_final (V0 m ρ) c r j)

theorem accSq_apply (c : Dev nD) (r : Fin 16) (j : Fin 128) :
    accSq m ρ c (ix2 r j) = ∑ b : Fin 262144, aX m c (ix2 (halfRow r b) j) * aX m c (ix2 (halfRow r b) j) :=
  (congrFun (W1_arr m ρ c 2) (ix2 r j)).trans (Stats.sumsq_final (V0 m ρ) c r j)

/-! ## The second region's inputs -/

theorem in_x (c : Dev nD) : Product.xin (V6 m ρ) c = aX m c :=
  (mid_x (W1 m ρ c)).trans (W1_x m ρ c)

theorem in_w (c : Dev nD) :
    Product.win (V6 m ρ) c = wfold (accSum m ρ c) (accSq m ρ c) (aW m c) (aGamma m c) (aAlpha m c) := by
  refine (mid_weight (W1 m ρ c)).trans ?_
  rw [W1_w, W1_gamma, W1_alpha]

theorem in_b (c : Dev nD) :
    Product.bin (V6 m ρ) c
      = bfold (accSum m ρ c) (accSq m ρ c) (aW m c) (aBias m c) (aGamma m c) (aBeta m c) (aAlpha m c) := by
  refine (mid_bias (W1 m ρ c)).trans ?_
  rw [W1_w, W1_bias, W1_gamma, W1_beta, W1_alpha]

/-! ## The result -/

/-- The kernel's result buffer at (b, o) is the kernel formula of the specification at the launched arguments. -/
theorem result_apply (c : Dev nD) (b : Fin 524288) (o : Fin 128) :
    (W7 m ρ c (Proc.devRef .tc main_v39) : S524288x128.Idx → EReal) (ix2 b o)
      = kOut (fun b i => aX m c (ix2 b i)) (fun o i => aW m c (ix2 o i)) (fun i => aBias m c (ix1 i))
          (fun i => aGamma m c (ix1 i)) (fun i => aBeta m c (ix1 i)) (fun i => aAlpha m c (ix1 i)) b o := by
  refine (congrFun (W7_arr m ρ c 3) (ix2 b o)).trans ?_
  refine (Product.out_final (V6 m ρ) c b o).trans ?_
  rw [in_x, in_w, in_b,
    bfold_spec (aX m c) (accSum m ρ c) (accSq m ρ c) (accSum_apply m ρ c) (accSq_apply m ρ c)]
  unfold kOut
  refine congrArg (· + _) (Finset.sum_congr rfl fun i _ => ?_)
  rw [wfold_spec (aX m c) (accSum m ρ c) (accSq m ρ c) (accSum_apply m ρ c) (accSq_apply m ρ c)]

end Cert.KernelIdeal.KernelValue

end
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.AlgConsts.lean ====
/-
  The five single-precision words of the two formulas, as the extended reals they denote, and the ternarised
  weight of two reals.

  n = 2¹⁹ (exponent field 146, fraction 0), 1 and −1 (exponent field 127, fraction 0) and 0 are read off their
  patterns. Of ε only the sign matters: it is the coercion of a positive real, the same real on both sides.
  The ternarised weight of two reals is one of the three words 1, −1, 0, so it is a real as well.
-/
import proofs.«115951_j65661460021995_2_alg».proof.Proof.Spec
import Idealize.ShloMosaic.PureOps.Ideal.Laws

noncomputable section

namespace Cert.Bridge

open Idealize.ShloMosaic

/-- The word of n denotes 524288 = 2²³ · 2^(146 − 127 − 23). -/
theorem nRows_eq : nRows = ((524288 : ℝ) : EReal) := by
  simp [Ideal.ofBits, Ideal.ieee, -EReal.coe_mul]; norm_num

/-- The zero word denotes 0. -/
theorem zero_eq : zero = 0 := Ideal.ofBits_zero_f32

theorem zero_eq_coe : zero = ((0 : ℝ) : EReal) := by rw [zero_eq, EReal.coe_zero]

/-- The word of 1.0 denotes 1 = 2²³ · 2^(127 − 127 − 23). -/
theorem one_eq : one = ((1 : ℝ) : EReal) := by
  simp [Ideal.ofBits, Ideal.ieee, -EReal.coe_mul]; norm_num

/-- The word of −1.0 denotes −1. -/
theorem negOne_eq : negOne = ((-1 : ℝ) : EReal) := by
  simp [Ideal.ofBits, Ideal.ieee, -EReal.coe_mul]; norm_num

/-- ε is a positive real: a normal pattern with the sign bit clear. -/
theorem eps_pos : ∃ e : ℝ, 0 < e ∧ eps = (e : EReal) := by
  simp [Ideal.ofBits, Ideal.ieee, -EReal.coe_mul]

/-- The ternarised weight of two reals is a real: whichever branch the two comparisons take, the value is one of
    the words 1, −1, 0. -/
theorem tern_coe (w a : ℝ) : ∃ t : ℝ, tern (w : EReal) (a : EReal) = (t : EReal) := by
  unfold tern Scalar.select
  split_ifs
  · exact ⟨1, one_eq⟩
  · exact ⟨-1, negOne_eq⟩
  · exact ⟨0, zero_eq_coe⟩

end Cert.Bridge

end
-- ==== Proof.VarianceLaw.lean ====
/-
  The one-pass and the two-pass variance of a finite family of reals are the same number:
  with m = (∑ x) / n,   (∑ x²) / n − m²  =  (∑ (x − m)²) / n.
-/
import Mathlib.Data.Real.Basic
import Mathlib.Algebra.BigOperators.Field
import Mathlib.Tactic.Ring
import Mathlib.Tactic.FieldSimp

namespace Cert.Bridge

open Finset

/-- Expanding the square and summing: ∑ (x − m)² = ∑ x² − 2 m ∑ x + n m². With m the mean, the last two terms
    combine to − n m², which is the one-pass form. -/
theorem variance_one_pass {ι : Type*} (s : Finset ι) (x : ι → ℝ) (n : ℝ) (hn : n ≠ 0) (hcard : (s.card : ℝ) = n) :
    (∑ b ∈ s, x b * x b) / n - ((∑ b ∈ s, x b) / n) * ((∑ b ∈ s, x b) / n)
      = (∑ b ∈ s, (x b - (∑ b ∈ s, x b) / n) * (x b - (∑ b ∈ s, x b) / n)) / n := by
  set S := ∑ b ∈ s, x b with hS
  have h : ∑ b ∈ s, (x b - S / n) * (x b - S / n)
      = (∑ b ∈ s, x b * x b) - 2 * (S / n) * S + (s.card : ℝ) * ((S / n) * (S / n)) := by
    have : ∀ b ∈ s, (x b - S / n) * (x b - S / n) = x b * x b - 2 * (S / n) * x b + (S / n) * (S / n) := by
      intro b _; ring
    rw [Finset.sum_congr rfl this, Finset.sum_add_distrib, Finset.sum_sub_distrib, ← Finset.mul_sum,
      Finset.sum_const, nsmul_eq_mul]
  rw [h, hcard]
  field_simp
  ring

end Cert.Bridge
-- ==== Proof.AlgHalves.lean ====
/-
  A sum over the 524288 rows is the sum over the lower half plus the sum over the upper half:
  the rows b and 262144 + b, b < 262144, list every row once.
-/
import proofs.«115951_j65661460021995_2_alg».proof.Proof.Spec
import Mathlib.Algebra.BigOperators.Fin

namespace Cert.Bridge

/-- 524288 = 262144 + 262144, and the two halves are the two summands' embeddings. -/
theorem sum_halves {M : Type*} [AddCommMonoid M] (f : Fin 524288 → M) :
    (∑ b : Fin 262144, f (lo b)) + (∑ b : Fin 262144, f (hi b)) = ∑ b : Fin 524288, f b := by
  have h := Fin.sum_univ_add (a := 262144) (b := 262144) (fun i : Fin (262144 + 262144) => f i)
  exact h.symm

end Cert.Bridge
-- ==== Proof.AlgStats.lean ====
/-
  The per-feature statistics of a real array, in both programs.

  For a real column c = x[·, i] over the n = 524288 rows put  m = (∑ c) / n  and  v = (∑ (c − m)²) / n.
  The reference's mean and the kernel's mean are both the coercion of m; the reference's two-pass variance and the
  kernel's one-pass variance (∑ c²) / n − m² are both the coercion of v (the variance law); v ≥ 0 and ε > 0, so
  v + ε > 0 and the reciprocal square root of it is the coercion of the real 1 / √(v + ε), the same in both programs.
-/
import proofs.«115951_j65661460021995_2_alg».proof.Proof.Spec
import proofs.«115951_j65661460021995_2_alg».proof.Proof.VarianceLaw
import proofs.«115951_j65661460021995_2_alg».proof.Proof.LibERealFinite
import proofs.«115951_j65661460021995_2_alg».proof.Proof.AlgConsts
import proofs.«115951_j65661460021995_2_alg».proof.Proof.AlgHalves

noncomputable section

namespace Cert.Bridge

open Idealize.ShloMosaic Idealize.ShloMosaic.ERealFinite

variable (x : Fin 524288 → Fin 128 → ℝ)

/-- The mean of feature i over the rows. -/
def colMean (i : Fin 128) : ℝ := (∑ b : Fin 524288, x b i) / 524288

/-- The (two-pass) variance of feature i over the rows. -/
def colVar (i : Fin 128) : ℝ :=
  (∑ b : Fin 524288, (x b i - colMean x i) * (x b i - colMean x i)) / 524288

/-- A mean of squares is not negative. -/
theorem colVar_nonneg (i : Fin 128) : 0 ≤ colVar x i :=
  div_nonneg (Finset.sum_nonneg fun _ _ => mul_self_nonneg _) (by norm_num)

/-- The kernel's two half sums make the sum over all rows. -/
theorem kSum_coe (i : Fin 128) :
    kSum (fun b i => ((x b i : ℝ) : EReal)) i = ((∑ b : Fin 524288, x b i : ℝ) : EReal) := by
  unfold kSum
  rw [coe_sum]
  exact sum_halves (fun b => ((x b i : ℝ) : EReal))

/-- Likewise for the sums of squares. -/
theorem kSumSq_coe (i : Fin 128) :
    kSumSq (fun b i => ((x b i : ℝ) : EReal)) i = ((∑ b : Fin 524288, x b i * x b i : ℝ) : EReal) := by
  unfold kSumSq
  rw [coe_sum]
  simp only [EReal.coe_mul]
  exact sum_halves (fun b => ((x b i : ℝ) : EReal) * ((x b i : ℝ) : EReal))

/-- The reference's mean: 0 + ∑ c, divided by n. -/
theorem refMean_coe (i : Fin 128) :
    refMean (fun b i => ((x b i : ℝ) : EReal)) i = ((colMean x i : ℝ) : EReal) := by
  unfold refMean colMean
  rw [zero_eq, zero_add, nRows_eq, Ideal.div_coe (y := 524288) (by norm_num), ← coe_sum, ← EReal.coe_mul,
    mul_one_div]

/-- The kernel's mean is the same real. -/
theorem kMean_coe (i : Fin 128) :
    kMean (fun b i => ((x b i : ℝ) : EReal)) i = ((colMean x i : ℝ) : EReal) := by
  unfold kMean colMean
  rw [kSum_coe, nRows_eq, Ideal.div_coe (y := 524288) (by norm_num), ← EReal.coe_mul, mul_one_div]

/-- The reference's variance: the mean of the squared deviations. -/
theorem refVar_coe (i : Fin 128) :
    refVar (fun b i => ((x b i : ℝ) : EReal)) i = ((colVar x i : ℝ) : EReal) := by
  unfold refVar colVar
  simp only [refMean_coe, ← EReal.coe_sub, ← EReal.coe_mul, ← coe_sum]
  rw [zero_eq, zero_add, nRows_eq, Ideal.div_coe (y := 524288) (by norm_num), ← EReal.coe_mul, mul_one_div]

/-- The kernel's variance, mean of squares minus square of the mean, is the same real: the variance law. -/
theorem kVar_coe (i : Fin 128) :
    kVar (fun b i => ((x b i : ℝ) : EReal)) i = ((colVar x i : ℝ) : EReal) := by
  unfold kVar
  rw [kSumSq_coe, kMean_coe, nRows_eq, Ideal.div_coe (y := 524288) (by norm_num), ← EReal.coe_mul,
    ← EReal.coe_mul, ← EReal.coe_sub, mul_one_div]
  congr 1
  unfold colVar colMean
  exact variance_one_pass Finset.univ (fun b => x b i) 524288 (by norm_num)
    (by simp only [Finset.card_univ, Fintype.card_fin, Nat.cast_ofNat])

/-- Both programs take the reciprocal square root of the positive real v + ε. -/
theorem rsqrt_var (i : Fin 128) : ∃ r : ℝ,
    Ideal.rsqrt (refVar (fun b i => ((x b i : ℝ) : EReal)) i + eps) = (r : EReal)
      ∧ Ideal.rsqrt (kVar (fun b i => ((x b i : ℝ) : EReal)) i + eps) = (r : EReal) := by
  obtain ⟨e, he, heps⟩ := eps_pos
  have hv := colVar_nonneg x i
  have hpos : 0 < colVar x i + e := by linarith
  have h : Ideal.rsqrt (((colVar x i : ℝ) : EReal) + eps) = (((Real.sqrt (colVar x i + e))⁻¹ : ℝ) : EReal) := by
    rw [heps, ← EReal.coe_add, Ideal.rsqrt_coe, if_neg (not_lt.mpr hpos.le), if_neg hpos.ne']
  exact ⟨(Real.sqrt (colVar x i + e))⁻¹, by rw [refVar_coe, h], by rw [kVar_coe, h]⟩

end Cert.Bridge

end
-- ==== Proof.Algebra.lean ====
/-
  On real inputs the kernel's formula and the reference's formula are the same extended real.

  With m, v the mean and variance of each feature, r = 1 / √(v + ε) and t the ternarised weight — all reals, and the
  same reals in both programs — the two outputs are coercions of real sums, and over ℝ
      ∑ᵢ x·(γ r t) + (∑ᵢ (β − m γ r) t + bias)  =  ∑ᵢ ((x − m) r γ + β) t + bias
  term by term: x γ r t + (β − m γ r) t = ((x − m) r γ + β) t.
-/
import proofs.«115951_j65661460021995_2_alg».proof.Proof.Spec
import proofs.«115951_j65661460021995_2_alg».proof.Proof.LibERealFinite
import proofs.«115951_j65661460021995_2_alg».proof.Proof.AlgConsts
import proofs.«115951_j65661460021995_2_alg».proof.Proof.AlgStats

noncomputable section

namespace Cert.Bridge

open Idealize.ShloMosaic Idealize.ShloMosaic.ERealFinite

/-- The identity over ℝ: folding the affine map into the weight changes nothing. -/
theorem fold_affine (xb m r γ β t : Fin 128 → ℝ) (c : ℝ) :
    (∑ i : Fin 128, xb i * (γ i * r i * t i)) + ((∑ i : Fin 128, (β i - m i * (γ i * r i)) * t i) + c)
      = (∑ i : Fin 128, ((xb i - m i) * r i * γ i + β i) * t i) + c := by
  rw [← add_assoc, ← Finset.sum_add_distrib]
  congr 1
  exact Finset.sum_congr rfl fun i _ => by ring

theorem kOut_eq_refOut (x : Fin 524288 → Fin 128 → ℝ) (w : Fin 128 → Fin 128 → ℝ) (bias γ β α : Fin 128 → ℝ)
    (b : Fin 524288) (o : Fin 128) :
    kOut (fun b i => ((x b i : ℝ) : EReal)) (fun o i => ((w o i : ℝ) : EReal)) (fun i => ((bias i : ℝ) : EReal))
        (fun i => ((γ i : ℝ) : EReal)) (fun i => ((β i : ℝ) : EReal)) (fun i => ((α i : ℝ) : EReal)) b o
      = refOut (fun b i => ((x b i : ℝ) : EReal)) (fun o i => ((w o i : ℝ) : EReal)) (fun i => ((bias i : ℝ) : EReal))
        (fun i => ((γ i : ℝ) : EReal)) (fun i => ((β i : ℝ) : EReal)) (fun i => ((α i : ℝ) : EReal)) b o := by
  choose r hr hkr using rsqrt_var x
  choose t ht using fun o i => tern_coe (w o i) (α i)
  unfold kOut refOut kShift kScale
  simp only [refMean_coe, kMean_coe, hr, hkr, ht, ← EReal.coe_mul, ← EReal.coe_sub, ← EReal.coe_add, ← coe_sum]
  congr 1
  exact fold_affine (fun i => x b i) (colMean x) r γ β (t o) (bias o)

end Cert.Bridge

end
-- ==== Proof.RefStats.lean ====
/-
  The reference's per-feature statistics read at an index.

  The reference computes, for every feature i, the mean m[i] = (0 + ∑_b x[b,i]) / n of column i of x and then the
  variance v[i] = (0 + ∑_b (x[b,i] − m[i])²) / n of the centred column. Each is a chain of host operations
  (a column sum, a broadcast constant, a division, two broadcasts back to the shape of x, a subtraction, a square);
  read at one index the chain collapses to the formulas `refMean` and `refVar` of the specification.
-/
import proofs.«115951_j65661460021995_2_alg».proof.Proof.Gen.ReferenceIdeal.Read
import proofs.«115951_j65661460021995_2_alg».proof.Proof.Spec

noncomputable section

open Idealize.ShloMosaic Idealize.ShloMosaic.TcCoe Idealize.SL.Sem

namespace Cert.ReferenceIdeal.RefValue

open Cert.ReferenceIdeal Cert.ReferenceIdeal.Gen Idealize.ShloMosaic.ValueIdx Cert.Bridge

/-! ### Where each layout operation reads its operand -/

/-- Summand k of the column sum at feature i is row k, column i. -/
theorem idx_sum (i : Fin 128) (k : Fin 524288) : Read.idx_main_v0 (ix1 i) k = ix2 k i :=
  funext fun a => Fin.ext (by match a with | ⟨0, _⟩ => rfl | ⟨1, _⟩ => rfl)

/-- The same for the sum of squares. -/
theorem idx_sumsq (i : Fin 128) (k : Fin 524288) : Read.idx_main_v7 (ix1 i) k = ix2 k i :=
  funext fun a => Fin.ext (by match a with | ⟨0, _⟩ => rfl | ⟨1, _⟩ => rfl)

/-- A per-feature vector broadcast over the rows is read, at (b, i), at feature i (first use: the mean under the squares). -/
theorem idx_bcast_a (b : Fin 524288) (i : Fin 128) : Read.idx_main_v3 (Read.idx_main_v4 (ix2 b i)) = ix1 i :=
  funext fun a => Fin.ext (by match a with | ⟨0, _⟩ => rfl)

/-! ### The mean and the variance at a feature -/

theorem mean_apply (x0 : S524288x128.Idx → EReal) (i : Fin 128) :
    Read.val_main_v2 (F := Ideal) x0 (ix1 i) = refMean (fun b i => x0 (ix2 b i)) i := by
  rw [Read.val_main_v2_apply, Read.val_main_v0_apply, Read.val_main_v1_apply, Read.val_main_cst_apply,
    Read.val_main_cst_0_apply]
  simp only [Ideal.hostDivf_def, Ideal.ofBits_def, idx_sum]
  rfl

/-- The centred entry x[b,i] − m[i] under the squares. -/
theorem centred_apply (x0 : S524288x128.Idx → EReal) (b : Fin 524288) (i : Fin 128) :
    Read.val_main_v5 (F := Ideal) x0 (ix2 b i) = x0 (ix2 b i) - refMean (fun b i => x0 (ix2 b i)) i := by
  rw [Read.val_main_v5_apply, Read.val_main_v4_apply, Read.val_main_v3_apply, idx_bcast_a, mean_apply]
  rfl

theorem var_apply (x0 : S524288x128.Idx → EReal) (i : Fin 128) :
    Read.val_main_v9 (F := Ideal) x0 (ix1 i) = refVar (fun b i => x0 (ix2 b i)) i := by
  rw [Read.val_main_v9_apply, Read.val_main_v7_apply, Read.val_main_v8_apply, Read.val_main_cst_1_apply,
    Read.val_main_cst_2_apply]
  simp only [idx_sumsq, Read.val_main_v6_apply, centred_apply, Ideal.hostDivf_def, Ideal.mulf_def, Ideal.ofBits_def]
  rfl

end Cert.ReferenceIdeal.RefValue

end
-- ==== Proof.RefTerms.lean ====
/-
  The two factors of the reference's contraction read at an index.

  Left factor, at row b and feature i: the normalised entry (x[b,i] − m[i]) · rsqrt(v[i] + ε) · γ[i] + β[i], where the
  per-feature vectors m, rsqrt(v + ε), γ, β are broadcast over the rows.
  Right factor, at output o and feature i: the ternarised weight, 1 where w[o,i] − α[i] > 0, else −1 where
  w[o,i] − α[i] < 1, else 0, written by the program as two nested selects on two comparisons of w − α (α broadcast
  over the outputs) against broadcast constants.
-/
import proofs.«115951_j65661460021995_2_alg».proof.Proof.RefStats

noncomputable section

open Idealize.ShloMosaic Idealize.ShloMosaic.TcCoe Idealize.SL.Sem

namespace Cert.ReferenceIdeal.RefValue

open Cert.ReferenceIdeal Cert.ReferenceIdeal.Gen Idealize.ShloMosaic.ValueIdx Cert.Bridge

/-! ### Where each broadcast reads its operand: a per-feature vector at (·, i) is read at feature i -/

theorem idx_bcast_mean (b : Fin 524288) (i : Fin 128) : Read.idx_main_v10 (Read.idx_main_v11 (ix2 b i)) = ix1 i :=
  funext fun a => Fin.ext (by match a with | ⟨0, _⟩ => rfl)
theorem idx_bcast_rsqrt (b : Fin 524288) (i : Fin 128) : Read.idx_main_v16 (Read.idx_main_v17 (ix2 b i)) = ix1 i :=
  funext fun a => Fin.ext (by match a with | ⟨0, _⟩ => rfl)
theorem idx_bcast_gamma (b : Fin 524288) (i : Fin 128) : Read.idx_main_v19 (Read.idx_main_v20 (ix2 b i)) = ix1 i :=
  funext fun a => Fin.ext (by match a with | ⟨0, _⟩ => rfl)
theorem idx_bcast_beta (b : Fin 524288) (i : Fin 128) : Read.idx_main_v22 (Read.idx_main_v23 (ix2 b i)) = ix1 i :=
  funext fun a => Fin.ext (by match a with | ⟨0, _⟩ => rfl)
theorem idx_bcast_alpha (o : Fin 128) (i : Fin 128) : Read.idx_main_v25 (Read.idx_main_v26 (ix2 o i)) = ix1 i :=
  funext fun a => Fin.ext (by match a with | ⟨0, _⟩ => rfl)

/-! ### The normalised entry -/

/-- rsqrt(v[i] + ε) at feature i. -/
theorem rsqrt_apply (x0 : S524288x128.Idx → EReal) (i : Fin 128) :
    Read.val_main_v15 (F := Ideal) x0 (ix1 i) = Ideal.rsqrt (refVar (fun b i => x0 (ix2 b i)) i + eps) := by
  rw [Read.val_main_v15_apply, Read.val_main_v14_apply, Read.val_main_v13_apply, Read.val_main_cst_3_apply, var_apply]
  rfl

theorem normalised_apply (x0 : S524288x128.Idx → EReal) (x3 x4 : S128.Idx → EReal) (b : Fin 524288) (i : Fin 128) :
    Read.val_main_v24 (F := Ideal) x0 x3 x4 (ix2 b i)
      = (x0 (ix2 b i) - refMean (fun b i => x0 (ix2 b i)) i)
          * Ideal.rsqrt (refVar (fun b i => x0 (ix2 b i)) i + eps) * x3 (ix1 i) + x4 (ix1 i) := by
  rw [Read.val_main_v24_apply, Read.val_main_v21_apply, Read.val_main_v18_apply, Read.val_main_v12_apply,
    Read.val_main_v11_apply, Read.val_main_v10_apply, idx_bcast_mean, mean_apply,
    Read.val_main_v17_apply, Read.val_main_v16_apply, idx_bcast_rsqrt, rsqrt_apply,
    Read.val_main_v20_apply, Read.val_main_v19_apply, idx_bcast_gamma,
    Read.val_main_v23_apply, Read.val_main_v22_apply, idx_bcast_beta]
  rfl

/-! ### The ternarised weight -/

/-- w[o,i] − α[i]. -/
theorem shifted_apply (x1 : S128x128.Idx → EReal) (x5 : S128.Idx → EReal) (o i : Fin 128) :
    Read.val_main_v27 (F := Ideal) x1 x5 (ix2 o i) = x1 (ix2 o i) - x5 (ix1 i) := by
  rw [Read.val_main_v27_apply, Read.val_main_v26_apply, Read.val_main_v25_apply, idx_bcast_alpha]
  rfl

theorem tern_apply (x1 : S128x128.Idx → EReal) (x5 : S128.Idx → EReal) (o i : Fin 128) :
    Read.val_main_v34 (F := Ideal) x1 x5 (ix2 o i) = tern (x1 (ix2 o i)) (x5 (ix1 i)) := by
  rw [Read.val_main_v34_apply, Read.val_main_v33_apply, Read.val_main_v29_apply, Read.val_main_v28_apply,
    Read.val_main_cst_4_apply, Read.val_main_call1_v0_apply, Read.val_main_cst_8_apply,
    Read.val_main_v32_apply, Read.val_main_v31_apply, Read.val_main_v30_apply, Read.val_main_cst_5_apply,
    Read.val_main_call0_v0_apply, Read.val_main_cst_6_apply, Read.val_main_call0_v1_apply, Read.val_main_cst_7_apply,
    shifted_apply]
  rfl

end Cert.ReferenceIdeal.RefValue

end
-- ==== Proof.RefValue.lean ====
/-
  The reference program read at an index is the specification's `refOut`.

  The program's last two operations are a contraction over the 128 features of the normalised entry (row b) against the
  ternarised weight (output o), and the addition of the bias broadcast over the rows. Read at (b, o) this is
  ∑ᵢ ((x[b,i] − m[i]) · rsqrt(v[i] + ε) · γ[i] + β[i]) · t[o,i] + bias[o].
-/
import proofs.«115951_j65661460021995_2_alg».proof.Proof.RefTerms

noncomputable section

open Idealize.ShloMosaic Idealize.ShloMosaic.TcCoe Idealize.SL.Sem

namespace Cert.ReferenceIdeal.RefValue

open Cert.ReferenceIdeal Cert.ReferenceIdeal.Gen Idealize.ShloMosaic.ValueIdx Cert.Bridge

/-- Term i of the contraction at (b, o) reads the left factor at (b, i). -/
theorem idx_contr_left (b : Fin 524288) (o i : Fin 128) : Read.lidx_main_v35 (ix2 b o) i = ix2 b i :=
  funext fun a => Fin.ext (by match a with | ⟨0, _⟩ => rfl | ⟨1, _⟩ => rfl)

/-- Term i of the contraction at (b, o) reads the right factor at (o, i). -/
theorem idx_contr_right (b : Fin 524288) (o i : Fin 128) : Read.ridx_main_v35 (ix2 b o) i = ix2 o i :=
  funext fun a => Fin.ext (by match a with | ⟨0, _⟩ => rfl | ⟨1, _⟩ => rfl)

/-- The bias broadcast over the rows is read, at (b, o), at output o. -/
theorem idx_bcast_bias (b : Fin 524288) (o : Fin 128) : Read.idx_main_v36 (Read.idx_main_v37 (ix2 b o)) = ix1 o :=
  funext fun a => Fin.ext (by match a with | ⟨0, _⟩ => rfl)

theorem val_eq_refOut (x0 : S524288x128.Idx → EReal) (x1 : S128x128.Idx → EReal) (x2 x3 x4 x5 : S128.Idx → EReal)
    (b : Fin 524288) (o : Fin 128) :
    Read.val_main_v38 (F := Ideal) x0 x1 x2 x3 x4 x5 (ix2 b o)
      = refOut (fun b i => x0 (ix2 b i)) (fun o i => x1 (ix2 o i)) (fun i => x2 (ix1 i)) (fun i => x3 (ix1 i))
          (fun i => x4 (ix1 i)) (fun i => x5 (ix1 i)) b o := by
  rw [Read.val_main_v38_apply, Read.val_main_v35_apply, Read.val_main_v37_apply, Read.val_main_v36_apply,
    idx_bcast_bias]
  simp only [idx_contr_left, idx_contr_right, normalised_apply, tern_apply]
  rfl

end Cert.ReferenceIdeal.RefValue

end
-- ==== Proof.Closing.lean ====
/-
  Two restatements used to close the claim.
  * On arrays of extended reals every entry of which is a real, the kernel's formula and the reference's formula agree
    (the algebra is stated for real arrays; here the reals are chosen entry by entry).
  * The reference's result, as a whole array, is the reference formula read at each index's two coordinates.
-/
import proofs.«115951_j65661460021995_2_alg».proof.Proof.Algebra
import proofs.«115951_j65661460021995_2_alg».proof.Proof.RefValue
import Idealize.ShloMosaic.Lib.ValueIdx

noncomputable section

namespace Cert.Bridge

open Idealize.ShloMosaic

theorem kOut_eq_refOut_of_real (x : Fin 524288 → Fin 128 → EReal) (w : Fin 128 → Fin 128 → EReal)
    (bias γ β α : Fin 128 → EReal)
    (hx : ∀ b i, ∃ r : ℝ, x b i = (r : EReal)) (hw : ∀ o i, ∃ r : ℝ, w o i = (r : EReal))
    (hbias : ∀ i, ∃ r : ℝ, bias i = (r : EReal)) (hγ : ∀ i, ∃ r : ℝ, γ i = (r : EReal))
    (hβ : ∀ i, ∃ r : ℝ, β i = (r : EReal)) (hα : ∀ i, ∃ r : ℝ, α i = (r : EReal))
    (b : Fin 524288) (o : Fin 128) :
    kOut x w bias γ β α b o = refOut x w bias γ β α b o := by
  choose x' hx' using hx
  choose w' hw' using hw
  choose bias' hbias' using hbias
  choose γ' hγ' using hγ
  choose β' hβ' using hβ
  choose α' hα' using hα
  obtain rfl : x = fun b i => ((x' b i : ℝ) : EReal) := funext fun b => funext fun i => hx' b i
  obtain rfl : w = fun o i => ((w' o i : ℝ) : EReal) := funext fun o => funext fun i => hw' o i
  obtain rfl : bias = fun i => ((bias' i : ℝ) : EReal) := funext hbias'
  obtain rfl : γ = fun i => ((γ' i : ℝ) : EReal) := funext hγ'
  obtain rfl : β = fun i => ((β' i : ℝ) : EReal) := funext hβ'
  obtain rfl : α = fun i => ((α' i : ℝ) : EReal) := funext hα'
  exact kOut_eq_refOut x' w' bias' γ' β' α' b o

end Cert.Bridge

namespace Cert.ReferenceIdeal.RefValue

open Cert.ReferenceIdeal Cert.ReferenceIdeal.Gen Idealize.ShloMosaic Idealize.ShloMosaic.ValueIdx Cert.Bridge

theorem val_fun (x0 : S524288x128.Idx → EReal) (x1 : S128x128.Idx → EReal) (x2 x3 x4 x5 : S128.Idx → EReal) :
    Read.val_main_v38 (F := Ideal) x0 x1 x2 x3 x4 x5
      = fun j : S524288x128.Idx =>
          refOut (fun b i => x0 (ix2 b i)) (fun o i => x1 (ix2 o i)) (fun i => x2 (ix1 i)) (fun i => x3 (ix1 i))
            (fun i => x4 (ix1 i)) (fun i => x5 (ix1 i)) (j 0) (j 1) := by
  funext j
  obtain ⟨p, q, rfl⟩ : ∃ (p : Fin 524288) (q : Fin 128), j = ix2 p q := ⟨j 0, j 1, eq_ix2 j⟩
  exact val_eq_refOut x0 x1 x2 x3 x4 x5 p q

end Cert.ReferenceIdeal.RefValue

end
-- ==== Proof.Finite.lean ====
/-
  Finite inputs are real.

  The precondition is the conjunction, over the six input arrays, of "every entry a satisfies |a| < +∞", each
  conjunct written as a reduction by `and` of the entrywise comparison of |a| against the broadcast word of +∞,
  starting from 1. If the conjunction is 1 then each reduction is 1, hence each entrywise comparison is 1 at every
  index, and an extended real whose absolute value lies strictly below +∞ is a real number.
-/
import proofs.«115951_j65661460021995_2_alg».proof.Pre_finite_inputs
import proofs.«115951_j65661460021995_2_alg».proof.Proof.LibERealFinite
import Idealize.ShloMosaic.Lib.ReduceAll
import Idealize.ShloMosaic.Lib.ValueIdx

noncomputable section

open Idealize.ShloMosaic

namespace Cert.Pre_finite_inputs.Finite

open Cert.Pre_finite_inputs

/-- The scalar shape has exactly one index. -/
instance : Subsingleton S_.Idx := ⟨fun a b => funext fun d => d.elim0⟩

/-- One conjunct: if "all |a| < +∞" over an array of any shape came out 1, every entry of the array is a real. -/
theorem all_real {s : Shape} {axes : List (Fin s.rank)} (a : s.Idx → EReal)
    (bc : S_.BroadcastsInDim s (![] : Fin 0 → Fin s.rank)) (hr : s.ReducesTo axes S_) (hu : 0 < S_.numel)
    (e : Host.reduce IntOp.andi
          (cmpf (F := Ideal) (φ := .f32) .olt (Host.absf a) (broadcastInDim s ![] bc (constant S_ .f32 0x7F800000#32)))
          (constantI S_ 1 1#1) hr hu ValueIdx.ix0 = 1#1) (j : s.Idx) : ∃ r : ℝ, a j = (r : EReal) :=
  ERealFinite.real_of_abs_lt (a j) (Host.reduce_andi_all _ _ hr hu _ e j)

theorem reals_of_pre [hP : Cert.Pre_finite_inputs.Facts] (a0 : S524288x128.Idx → EReal) (a1 : S128x128.Idx → EReal)
    (a2 a3 a4 a5 : S128.Idx → EReal)
    (h : Cert.Pre_finite_inputs.fn (F := Ideal) a0 a1 a2 a3 a4 a5 = (fun _ => 1#1)) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) ∧ (∀ j, ∃ r : ℝ, a5 j = (r : EReal)) := by
  have h0 := congrFun h ValueIdx.ix0
  dsimp only [fn, fn_part1] at h0
  -- a conjunction of one-bit words is 1 exactly when both are
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5⟩

end Cert.Pre_finite_inputs.Finite

end
-- ==== Proof.lean ====
/-
  The claim: the three frames, the (empty) idealization ledger, and the equality of the two idealized programs' results.

  Both idealized programs normalise x per feature over its 524288 rows and apply a ternarised weight. The reference takes
  the two-pass variance and normalises every row before the product; the kernel takes the one-pass variance from sums
  accumulated over the grid, and folds the affine normalisation into the weight and the bias before a plain product.
  On finite inputs — which the precondition gives — every intermediate quantity is a real number, the two variances are
  the same number, the variance plus ε is positive so its reciprocal square root is a real, and the two results differ by
  distributivity only.
-/
import proofs.«115951_j65661460021995_2_alg».proof.Defs
import proofs.«115951_j65661460021995_2_alg».proof.Proof.Gen.Kernel
import proofs.«115951_j65661460021995_2_alg».proof.Proof.Gen.Kernel.Skeleton
import proofs.«115951_j65661460021995_2_alg».proof.Proof.Gen.Kernel.Launch
import proofs.«115951_j65661460021995_2_alg».proof.Proof.Gen.Kernel.Points
import proofs.«115951_j65661460021995_2_alg».proof.Proof.Gen.Kernel.Frame
import proofs.«115951_j65661460021995_2_alg».proof.Proof.Gen.KernelIdeal
import proofs.«115951_j65661460021995_2_alg».proof.Proof.Gen.KernelIdeal.Skeleton
import proofs.«115951_j65661460021995_2_alg».proof.Proof.Gen.KernelIdeal.Launch
import proofs.«115951_j65661460021995_2_alg».proof.Proof.Gen.KernelIdeal.Points
import proofs.«115951_j65661460021995_2_alg».proof.Proof.Gen.KernelIdeal.Frame
import proofs.«115951_j65661460021995_2_alg».proof.Proof.Gen.ReferenceIdeal
import proofs.«115951_j65661460021995_2_alg».proof.Proof.Gen.Pre_finite_inputs
import proofs.«115951_j65661460021995_2_alg».proof.Proof.Gen.ReferenceIdeal.Run
import proofs.«115951_j65661460021995_2_alg».proof.Proof.Gen.ReferenceIdeal.Read
import proofs.«115951_j65661460021995_2_alg».proof.Proof.RunValue
import proofs.«115951_j65661460021995_2_alg».proof.Proof.KernelValue
import proofs.«115951_j65661460021995_2_alg».proof.Proof.Closing
import proofs.«115951_j65661460021995_2_alg».proof.Proof.Finite
import Idealize.ShloMosaic.Adequacy
import Idealize.ShloMosaic.Init

set_option maxRecDepth 16384

noncomputable section

namespace Cert.Proof.Claims

open Idealize.ShloMosaic Idealize.ShloMosaic.TcCoe Idealize.SL.Sem Idealize.ShloMosaic.ValueIdx Cert.Bridge
open Cert.KernelIdeal.KernelValue

/-- The result both programs end at: the reference formula of the launched arguments, index by index. -/
def common (x0 : Cert.KernelIdeal.S524288x128.Idx → EReal) (x1 : Cert.KernelIdeal.S128x128.Idx → EReal)
    (x2 x3 x4 x5 : Cert.KernelIdeal.S128.Idx → EReal) : Cert.KernelIdeal.S524288x128.Idx → EReal :=
  fun j => refOut (fun b i => x0 (ix2 b i)) (fun o i => x1 (ix2 o i)) (fun i => x2 (ix1 i)) (fun i => x3 (ix1 i))
    (fun i => x4 (ix1 i)) (fun i => x5 (ix1 i)) (j 0) (j 1)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Under the precondition the kernel's result buffer is the common value: the kernel formula at the launched
    arguments, which on finite arguments is the reference formula. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W7 m ρ c (Proc.devRef .tc Cert.KernelIdeal.main_v39)
      = common (aX m c) (aW m c) (aBias m c) (aGamma m c) (aBeta m c) (aAlpha m c) := by
  funext j
  obtain ⟨p, q, rfl⟩ : ∃ (p : Fin 524288) (q : Fin 128), j = ix2 p q := ⟨j 0, j 1, eq_ix2 j⟩
  refine (result_apply m ρ c p q).trans ?_
  obtain ⟨h0, h1, h2, h3, h4, h5⟩ :=
    Cert.Pre_finite_inputs.Finite.reals_of_pre (aX m c) (aW m c) (aBias m c) (aGamma m c) (aBeta m c) (aAlpha m c) (hpre c)
  exact kOut_eq_refOut_of_real _ _ _ _ _ _ (fun b i => h0 (ix2 b i)) (fun o i => h1 (ix2 o i)) (fun i => h2 (ix1 i))
    (fun i => h3 (ix1 i)) (fun i => h4 (ix1 i)) (fun i => h5 (ix1 i)) p q

theorem algebraic : Cert.algebraic_KernelIdeal_ReferenceIdeal := by
  intro m ρ m' ρ' hpre hagree
  refine ⟨fun c => common (aX m c) (aW m c) (aBias m c) (aGamma m c) (aBeta m c) (aAlpha m c), ?_, ?_⟩
  · exact (θ_run Cert.KernelIdeal.defs _ _).mono
      (fun r h c => ⟨(h c).1.trans (kernel_value m ρ hpre c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v38_eq, Cert.ReferenceIdeal.RefValue.val_fun,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

namespace Cert.Proof

theorem claim : Cert.Claim := Cert.Proof.Claims.claim

end Cert.Proof

end
